-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S8192x512, .bf16⟩
  | .hbm, ⟨6, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .f32⟩
  | .local _ .vmem, ⟨7, _⟩ => ⟨S1024x2048, .f32⟩
  | .local _ .vmem, ⟨8, _⟩ => ⟨S8192x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  h_S2048x512 : 0 < S2048x512.numel
  shapeCasts_S2048x512_S2048x512 : S2048x512.ShapeCasts S2048x512
  dot_S1024x512_S512x512_S1024x512_1_1_0_0_n_n_wf : DotDims.WF S1024x512 S512x512 S1024x512 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_1_0_0_n_n_wf : DotDims.WF S8192x512 S512x512 S8192x512 [1] [1] [0] [0] [] []
  dot_S8192x8192_S8192x512_S8192x512_1_0_0_1_n_n_wf : DotDims.WF S8192x8192 S8192x512 S8192x512 [1] [0] [0] [1] [] []

variable [Facts₀]

def dot_S8192x512_S512x512_S8192x512_1_1_0_0_n_n : DotDims S8192x512 S512x512 S8192x512 where
  lhsContracting := [1]
  rhsContracting := [1]
  lhsNonContracting := [0]
  rhsNonContracting := [0]
  lhsBatch := []
  rhsBatch := []
  wf := dot_S8192x512_S512x512_S8192x512_1_1_0_0_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.BitsCall0.lean ====
/-
  The first call of the program: one block of hidden features per grid point.

  The grid has eight points. At point t the call stages rows 1024·t … 1024·t+1023 of the input features, the
  whole weight matrix and the bias row, and its body stores into the staged result block the product of the
  input block with the transposed weights plus the bias row (one store of the whole block); the block is written
  back to rows 1024·t … of the hidden array. This file states, for any float instance and at any contents V of the
  core's buffers when the call is entered: what each window's block is, what the body leaves in the result's
  staging buffer as a function of the three input blocks (hidBlock), the body's triple, and the data the pipeline
  rule takes (the arrays as found, what every buffer holds after the body at each point, nothing owed).
-/
import proofs.«174728_j6597069766680_2_alg».proof.Proof.Gen.Kernel.Launch
import proofs.«174728_j6597069766680_2_alg».proof.Proof.Gen.Kernel.Skeleton
import proofs.«174728_j6597069766680_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the call is entered
variable (V : (c : Dev nD) → (b : Ref sig .tc) → Buf (Elt F) ((c : Thread nD τ).loc b))

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window not
    fetched at a point has not moved since it was. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's rectangles: each is its whole buffer. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- What the body leaves in the result's staging buffer, from the three input blocks: its one store. -/
def hidBlock (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- That store covers the buffer. -/
theorem hidBlock_cover (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

set_option maxHeartbeats 1000000 in
/-- The body on whole staging memrefs, the inputs' holding x0, x1, x2 and the result's anything, runs to its return
    with the inputs' as they were and the result's at hidBlock x0 x1 x2. -/
theorem body0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (hidBlock x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hidBlock_cover _)

/-- The data the pipeline rule takes for this call on core c: the arrays as found; after the body at point t each
    input's buffer at its block and the result's at hidBlock of the three blocks; the invariant the scoped buffers
    no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hidBlock (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = hidBlock (blk0 V c 0 t) (blk0 V c 1 t) (blk0 V c 2 t) := by dsimp only [dat0]

theorem dat0_before_0 (c : Dev nD) (t : Fin cfg0.N) (d) : (dat0 V c).before 0 t d = blk0 V c 0 t :=
  found0_0 V (dat0 V c) (dat0_A V c 0) (dat0_after_0 V c) t d
theorem dat0_before_1 (c : Dev nD) (t : Fin cfg0.N) (d) : (dat0 V c).before 1 t d = blk0 V c 1 t :=
  found0_1 V (dat0 V c) (dat0_A V c 1) (dat0_after_1 V c) t d
theorem dat0_before_2 (c : Dev nD) (t : Fin cfg0.N) (d) : (dat0 V c).before 2 t d = blk0 V c 2 t :=
  found0_2 V (dat0 V c) (dat0_A V c 2) (dat0_after_2 V c) t d

/-- What the body is called with at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation for the body, at every point. -/
theorem obligation0 (c : Dev nD) : BodyObligation (dat0 (F := F) V c) (defs₀ (F := F)) Variants.none () Set.univ := fun t => by
  rw [bigSep_W0, bigSep_W0]
  exact body0_at V c t

end

end Cert.Kernel.Hand

end
-- ==== Proof.BitsCall1Runs.lean ====
/-
  The second call of the program, first half: its body's two conditions in closed form, where its windows are idle,
  and the body's triple in each of its three cases.

  The grid is 8 × 4: point t has row block t / 4 and tile t % 4. The body keeps a 1024 × 512 accumulator in a scratch
  buffer of its own between points: at tile 0 it first fills the accumulator with zeros; at every tile it adds to the
  accumulator the product of the staged adjacency block with rows 2048·tile … of the staged hidden array; at tile 3 it
  copies the accumulator into the result's staging buffer. So a point is in one of three cases — tile 0; tiles 1, 2;
  tile 3 — and in each the body's triple is stated with the pieces its stores leave as the witness the run finds.
-/
import proofs.«174728_j6597069766680_2_alg».proof.Proof.Gen.Kernel.Launch
import proofs.«174728_j6597069766680_2_alg».proof.Proof.Gen.Kernel.Skeleton
import proofs.«174728_j6597069766680_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's first condition: the tile coordinate is 0. -/
abbrev isFirst (i : grid1.Coords) : Prop := (Scalar.cmpi .ne (Scalar.extui (Scalar.cmpi .eq (BitVec.ofNat 32 (i 1).val) 0#32)) 0#32) = 1#1
/-- It holds at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)
/-- The body's second condition: the tile coordinate is 3. -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Off tile 3 the result's window is idle and is not written back; -/
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
/-- at tile 3 it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the call's own. -/
abbrev accM : Memref sig .tc .vmem S1024x512 .f32 := Memref.whole cc1_scratch0
/-- The views through which the accumulator's and the result buffer's contents are stated. -/
abbrev accV : View sig .tc .vmem S1024x512 .f32 := accM.view
abbrev outV : View sig .tc .vmem S1024x512 .f32 := (Memref.whole cc1_stg2_0 : Memref sig .tc .vmem S1024x512 .f32).view

/-! ## The body's triple, case by case -/

set_option maxHeartbeats 1000000 in
/-- TILE 0. On whole memrefs — the adjacency block's at x0, the hidden array's at x1, the result's at xi (handed back
    untouched), the accumulator's at anything — the body runs to its return with the inputs' and the result's as they
    were and the accumulator's with the pieces LS written; LS is what the run finds. -/
noncomputable def runFirst (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : isFirst i) (hc1 : ¬isLast i) (x0 : Vec F S1024x2048 .f32) (x1 : Vec F S8192x512 .bf16) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact H5

set_option maxHeartbeats 1000000 in
/-- TILES 1 AND 2. As at tile 0, the accumulator's memref now at the contents xs the point before left. -/
noncomputable def runMid (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : ¬isLast i) (x0 : Vec F S1024x2048 .f32) (x1 : Vec F S8192x512 .bf16) (xs : Vec F S1024x512 .f32) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact H5

set_option maxHeartbeats 1000000 in
/-- TILE 3. The result's memref at anything; it ends with the pieces LO written, the accumulator's with LS. -/
noncomputable def runLast (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.BitsCall1.lean ====
/-
  The second call of the program, second half: what the accumulator and the result's staging buffer hold after every
  point, by recursion on the point (tile 0 starts from zeros, every later tile adds to what the tile before left, tile
  3 also copies the total out); the invariant that carries the accumulator from point to point; and the data and the
  obligation the pipeline rule takes, for any float instance and at any contents V of the core's buffers when the call
  is entered. Off tile 3 the result's buffer is idle: handed back as found and not written back.
-/
import proofs.«174728_j6597069766680_2_alg».proof.Proof.BitsCall1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Tile 0's pieces cover the accumulator. -/
theorem coverFirst (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : isFirst i) (hc1 : ¬isLast i) (x0 : Vec F S1024x2048 .f32) (x1 : Vec F S8192x512 .bf16) (y : S1024x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x512.size (by sl_kernel_rfl) y

/-- What tile 0 leaves in the accumulator: its pieces read back. -/
def accFirst (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : isFirst i) (hc1 : ¬isLast i) (x0 : Vec F S1024x2048 .f32) (x1 : Vec F S8192x512 .bf16) : Vec F S1024x512 .f32 :=
  accV.read (Elt F) (accV.writes (Elt F) accV.junk (runFirst c i arg2 harg2 arg3 harg3 arg4 harg4 arg5 harg5 hc0 hc1 x0 x1).1)

theorem coverMid (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : ¬isLast i) (x0 : Vec F S1024x2048 .f32) (x1 : Vec F S8192x512 .bf16) (xs : Vec F S1024x512 .f32) (y : S1024x512.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x512.size (by sl_kernel_rfl) y

/-- What tiles 1 and 2 leave in the accumulator. -/
def accMid (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : ¬isLast i) (x0 : Vec F S1024x2048 .f32) (x1 : Vec F S8192x512 .bf16) (xs : Vec F S1024x512 .f32) : Vec F S1024x512 .f32 :=
  accV.read (Elt F) (accV.writes (Elt F) accV.junk (runMid c i arg2 harg2 arg3 harg3 arg4 harg4 arg5 harg5 hc0 hc1 x0 x1 xs).1)

theorem coverLastOut (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) (y : S1024x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x512.size (by sl_kernel_rfl) y

/-- What tile 3 leaves in the result's staging buffer. -/
def outLast (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) : Vec F S1024x512 .f32 :=
  outV.read (Elt F) (outV.writes (Elt F) outV.junk (runLast c i arg2 harg2 arg3 harg3 arg4 harg4 arg5 harg5 hc0 hc1 x0 x1 xs).1)

theorem coverLastAcc (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) (y : S1024x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x512.size (by sl_kernel_rfl) y

/-- What tile 3 leaves in the accumulator. -/
def accLast (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) : Vec F S1024x512 .f32 :=
  accV.read (Elt F) (accV.writes (Elt F) accV.junk (runLast c i arg2 harg2 arg3 harg3 arg4 harg4 arg5 harg5 hc0 hc1 x0 x1 xs).2.1)

section
variable (V : (c : Dev nD) → (b : Ref sig .tc) → Buf (Elt F) ((c : Thread nD τ).loc b))

/-- Window w's block at point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## Through the grid -/

/-- THE ACCUMULATION. What the result's staging buffer and the accumulator hold after the body at position n (a pair, in
    that order): the case the closed forms select at n, run at the point's memrefs and input blocks, the accumulator
    taken at what position n − 1 left. Off tile 3 the first component is a placeholder nothing consults (the window
    is idle there). -/
def stateAt (c : Dev nD) : (n : ℕ) → n < cfg1.N → Vec F S1024x512 .f32 × Vec F S1024x512 .f32
  | 0, hn => (View.canon [], accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM (Memref.isWhole_whole _)
      ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 4 = 0 then
      if h1 : (n + 1) % 4 = 3 then
        False.elim (by omega)
      else
        (View.canon [], accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
          ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 4 = 3 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
            (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2,
          accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
            (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2)
      else
        (View.canon [], accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
          (fun h => h0 ((isFirst_iff ⟨n + 1, hn⟩).mp h)) (fun h => h1 ((isLast_iff ⟨n + 1, hn⟩).mp h)) (blk1 V c 0 ⟨n + 1, hn⟩) (blk1 V c 1 ⟨n + 1, hn⟩) (stateAt c n (Nat.lt_of_succ_lt hn)).2)

/-- At a point of tile 0. -/
theorem stateAt_first (c : Dev nD) (t : Fin cfg1.N) (h0 : t.val % 4 = 0) (h1 : ¬t.val % 4 = 3) :
    stateAt V c t.val t.isLt = (View.canon [], accFirst c (grid1.coords t) (ms1_0 t) (hs1_0 t) (ms1_1 t) (hs1_1 t) (ms1_2 t) (hs1_2 t) accM (Memref.isWhole_whole _)
      ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- At a point of tile 1 or 2: over what the point before left. -/
theorem stateAt_mid (c : Dev nD) (t : Fin cfg1.N) (h0 : ¬t.val % 4 = 0) (h1 : ¬t.val % 4 = 3) :
    stateAt V c t.val t.isLt = (View.canon [], accMid c (grid1.coords t) (ms1_0 t) (hs1_0 t) (ms1_1 t) (hs1_1 t) (ms1_2 t) (hs1_2 t) accM (Memref.isWhole_whole _)
      (fun h => h0 ((isFirst_iff t).mp h)) (fun h => h1 ((isLast_iff t).mp h)) (blk1 V c 0 t) (blk1 V c 1 t)
      (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of tile 3: over what the point before left. -/
theorem stateAt_last (c : Dev nD) (t : Fin cfg1.N) (h0 : ¬t.val % 4 = 0) (h1 : t.val % 4 = 3) :
    stateAt V c t.val t.isLt = (outLast c (grid1.coords t) (ms1_0 t) (hs1_0 t) (ms1_1 t) (hs1_1 t) (ms1_2 t) (hs1_2 t) accM (Memref.isWhole_whole _)
        (fun h => h0 ((isFirst_iff t).mp h)) ((isLast_iff t).mpr h1) (blk1 V c 0 t) (blk1 V c 1 t) (stateAt V c (t.val - 1) (Nat.lt_of_le_of_lt (Nat.sub_le _ _) t.isLt)).2,
      accLast c (grid1.coords t) (ms1_0 t) (hs1_0 t) (ms1_1 t) (hs1_1 t) (ms1_2 t) (hs1_2 t) accM (Memref.isWhole_whole _)
        (fun h => h0 ((isFirst_iff t).mp h)) ((isLast_iff t).mpr h1) (blk1 V c 0 t) (blk1 V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers the second call does not stage other than its accumulator — the first call's six staging
    buffers —, each whole at some contents, beside K. -/
abbrev scopedWith (c : Dev nD) (K : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ K)

/-- The invariant the launch hands the call, with the accumulator as a memref owned at some contents. -/
theorem PhiA1_eq (c : Dev nD) :
    (Pipeline.ΦA spec1 c : sProp 𝕄) = iprop(scopedWith c (iprop(∃ d, owns (c : Thread nD τ) accM fullShare d)) ∗ (∃ r, prngReg c r)) := by
  unfold Pipeline.ΦA; rw [scopedRest1_eq]; simp only [accM, owns_whole]; try rfl

/-- The invariant before position n: before the first point what the launch hands the call; afterwards the same with
    the accumulator at what the point before left. -/
def PhiS (c : Dev nD) : (n : ℕ) → n ≤ cfg1.N → sProp 𝕄
  | 0, _ => Pipeline.ΦA spec1 c
  | n + 1, hn => iprop(scopedWith c (owns (c : Thread nD τ) accM fullShare ((stateAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) accM fullShare ((stateAt V c n hn).2)) ∗ (∃ r, prngReg c r)) := rfl
theorem PhiS_pos (c : Dev nD) (n : ℕ) (h : n ≤ cfg1.N) (hz : n ≠ 0) :
    PhiS V c n h = iprop(scopedWith c (owns (c : Thread nD τ) accM fullShare ((stateAt V c (n - 1) (by omega)).2)) ∗ (∃ r, prngReg c r)) := by
  cases n with
  | zero => exact absurd rfl hz
  | succ n => rfl

/-! ## The data the pipeline rule takes -/

/-- On core c: the arrays as found; after the body at point t each input's buffer at its block and the result's at
    stateAt's first component; the invariant PhiS; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stateAt V c t.val t.isLt).1
  Φ t := PhiS V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_Phi_castSucc (c : Dev nD) (t : Fin cfg1.N) :
    (dat1 V c).Φ t.castSucc = PhiS V c t.val (Nat.le_of_lt t.isLt) := by
  dsimp only [dat1]; simp only [Fin.coe_castSucc]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = (stateAt V c t.val t.isLt).1 := by dsimp only [dat1]
theorem dat1_before_0 (c : Dev nD) (t : Fin cfg1.N) (d) : (dat1 V c).before 0 t d = blk1 V c 0 t :=
  found1_0 V (dat1 V c) (dat1_A V c 0) (dat1_after_0 V c) t d
theorem dat1_before_1 (c : Dev nD) (t : Fin cfg1.N) (d) : (dat1 V c).before 1 t d = blk1 V c 1 t :=
  found1_1 V (dat1 V c) (dat1_A V c 1) (dat1_after_1 V c) t d

/-- What the body is called with at point t, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the first point) and takes
    it back at this point's contents; off tile 3 the result's buffer is handed back as found; nothing is owed. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], dat1_after_0]
  rw [show (dat1 V c).leavesExact 1 t = owns (c : Thread nD τ) (ms1_1 t) fullShare ((dat1 V c).after 1 t) from by
    unfold Dat.leavesExact; rw [live1_1 t], dat1_after_1]
  by_cases h0 : t.val % 4 = 0
  · have h1 : ¬t.val % 4 = 3 := by omega
    rw [Dat.leavesExact_idle (dat1 V c) 2 t (idle1_2 t (fun h => h1 ((isLast_iff t).mp h))) (noFlush1_2 t (fun h => h1 ((isLast_iff t).mp h)))]
    rw [stateAt_first V c t h0 h1]
    unfold accFirst; (try dsimp only)
    by_cases hz : t.val = 0
    · rw [dat1_Phi_castSucc V c t, PhiS_zero V c _ _ hz, PhiA1_eq]
      iintro ⟨⟨⟨A0, A1, A2, A3, A4, A5, HS⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [dat1_Phi_castSucc V c t, PhiS_pos V c _ _ hz]
      iintro ⟨⟨⟨A0, A1, A2, A3, A4, A5, HS⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [live1_2 t ((isLast_iff t).mpr h1)], dat1_after_2]
      rw [stateAt_last V c t h0 h1]
      unfold outLast accLast; (try dsimp only)
      rw [dat1_Phi_castSucc V c t, PhiS_pos V c _ _ hz]
      iintro ⟨⟨⟨A0, A1, A2, A3, A4, A5, HS⟩, Hg⟩, Ho, ⟨%d0, H0⟩, ⟨%d1, H1⟩, ⟨%d2, H2⟩⟩
      iapply ((runLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [Dat.leavesExact_idle (dat1 V c) 2 t (idle1_2 t (fun h => h1 ((isLast_iff t).mp h))) (noFlush1_2 t (fun h => h1 ((isLast_iff t).mp h)))]
      rw [stateAt_mid V c t h0 h1]
      unfold accMid; (try dsimp only)
      rw [dat1_Phi_castSucc V c t, PhiS_pos V c _ _ hz]
      iintro ⟨⟨⟨A0, A1, A2, A3, A4, A5, HS⟩, Hg⟩, Ho, ⟨%d0, H0⟩, ⟨%d1, H1⟩, ⟨%d2, H2⟩⟩
      iapply ((runMid c (grid1.coords t) _ _ _ _ _ _ _ _ (fun h => h0 ((isFirst_iff t).mp h)) (fun h => h1 ((isLast_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The pipeline rule's obligation for the body, at every point. -/
theorem obligation1 (c : Dev nD) : BodyObligation (dat1 (F := F) V c) (defs₀ (F := F)) Variants.none () Set.univ := fun t => by
  rw [bigSep_W1, bigSep_W1]
  exact body1_at V c t

/-- What the launch hands the call is the invariant before the first point. -/
theorem phi1_in (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the accumulator's named contents are forgotten. -/
theorem phi1_out (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end

end Cert.Kernel.Hand

end
-- ==== Proof.BitsRun.lean ====
/-
  The whole program's run: the bias recast as a row on the host, the first call, the second call.

  Between two of these items every unscoped buffer of a core holds known contents: at launch the memory m; after the
  host line, m with the bias row written; after the first call, that with the hidden array at what the call's eight
  write-backs leave; after the second call, that with the result at what its eight write-backs (one per row block, at
  tile 3) leave. Each call is entered from such a state and left at the next: its windows' arrays are split out of the
  unscoped buffers and put back at their final contents, the generator register rides through the call's invariant, the
  second call's accumulator is an unnamed scoped buffer before the call and after it. So every weakly fair execution from
  m terminates, nothing faulting, with every unscoped buffer at the last state's contents — in particular each argument
  as launched (no item writes one) and the result at the second call's final array.
-/
import proofs.«174728_j6597069766680_2_alg».proof.Proof.BitsCall0
import proofs.«174728_j6597069766680_2_alg».proof.Proof.BitsCall1
import proofs.«174728_j6597069766680_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 (c : Dev nD) : Valuation τ sig (Elt F) := fun b => m (c, b)
/-- After the host line (the first call's entry). -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem arrs0 (c : Dev nD) (w : Fin cfg0.W) : (dat0 (E1 m) c).arrAt w cfg0.N = E2 m c (Pipeline.arrRef spec0 w) :=
  (W2_arr m c w).symm
theorem rest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem arrs1 (c : Dev nD) (w : Fin cfg1.W) : (dat1 (E2 m) c).arrAt w cfg1.N = E3 m c (Pipeline.arrRef spec1 w) :=
  (W3_arr m c w).symm
theorem rest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## No item writes an argument; where the two calls' operands come from -/

/-- The host line writes the bias row only. -/
theorem W1_of (c : Dev nD) (r : Ref sig .tc) (h : r ∉ hostOps0_W) : W1 m c (Proc.devRef .tc r) = m ((c : Thread nD τ).loc r) :=
  (Gen.V1_of m c r h).trans rfl

theorem W3_main_arg0 (c : Dev nD) : W3 m c (Proc.devRef .tc main_arg0) = m ((c : Thread nD τ).loc main_arg0) :=
  (W3_of_ne m c main_arg0 (by decide)).trans <| ((W2_arr m c 0).trans (((dat0 (E1 m) c).arrAt_in 0 rfl _).trans (dat0_A (E1 m) c 0))).trans <|
    W1_of m c main_arg0 (by decide)
theorem W2_main_arg1 (c : Dev nD) : W2 m c (Proc.devRef .tc main_arg1) = m ((c : Thread nD τ).loc main_arg1) :=
  (W2_of_ne m c main_arg1 (by decide)).trans (W1_of m c main_arg1 (by decide))
theorem W3_main_arg1 (c : Dev nD) : W3 m c (Proc.devRef .tc main_arg1) = m ((c : Thread nD τ).loc main_arg1) :=
  ((W3_arr m c 0).trans (((dat1 (E2 m) c).arrAt_in 0 rfl _).trans (dat1_A (E2 m) c 0))).trans (W2_main_arg1 m c)
theorem W3_main_arg2 (c : Dev nD) : W3 m c (Proc.devRef .tc main_arg2) = m ((c : Thread nD τ).loc main_arg2) :=
  (W3_of_ne m c main_arg2 (by decide)).trans <| ((W2_arr m c 1).trans (((dat0 (E1 m) c).arrAt_in 1 rfl _).trans (dat0_A (E1 m) c 1))).trans <|
    W1_of m c main_arg2 (by decide)
theorem W3_main_arg3 (c : Dev nD) : W3 m c (Proc.devRef .tc main_arg3) = m ((c : Thread nD τ).loc main_arg3) :=
  (W3_of_ne m c main_arg3 (by decide)).trans <| (W2_of_ne m c main_arg3 (by decide)).trans <| W1_of m c main_arg3 (by decide)
/-- The result after the run: the second call's final array. -/
theorem W3_main_v2 (c : Dev nD) : W3 m c (Proc.devRef .tc main_v2) = (dat1 (E2 m) c).arrAt 2 cfg1.N := W3_arr m c 2
/-- The hidden array the second call stages: the first call's final array. -/
theorem V2_main_v1 (c : Dev nD) : E2 m c main_v1 = (dat0 (E1 m) c).arrAt 3 cfg0.N := W2_arr m c 3

/-! ## The proof data family and the thread state -/

abbrev tables : (p : Fin 2) → (pcfgs (F := F) p).Adm := fun p => (cfgs p).toPCfg_adm
/-- Each call's data at its entry contents. -/
def pdats : (p : Fin 2) → (c : Dev nD) → Dat τ (Elt F) Unit ℕ (UR sig nD τ) ℕ (Pipeline.pin (pcfgs (F := F)) tables p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
/-- THE FIRST CALL over the thread state: entered from every unscoped buffer at W1, left at W2. -/
def reg0 : Pipeline.RegionSeg (pcfgs (F := F)) tables (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at W2, left at W3. Its invariant starts as
    what the launch hands it and ends, the accumulator's contents forgotten, as that again. -/
def reg1 : Pipeline.RegionSeg (pcfgs (F := F)) tables (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h := phi1_in (E2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E2 m) c).Φ (Fin.last cfg1.N) from rfl]
    have h := phi1_out (E2 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (arrs1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev items : List (Pipeline.Seg (pcfgs (F := F)) tables (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (items m) := (main_chain c).trans (by chain_rfl)

set_option backward.isDefEq.respectTransparency.types false in
/-- THE RUN. From any memory m with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) tables (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c)⟩) (run_all m ρ)

/-- THE RUN WITH THE RESULT NAMED: the result array ends at the second call's final array, the arguments as launched. -/
theorem run_result : θ_run defs (onTc (τ := τ) (main (F := F))) ⟨m, fun _ => 0, ρ⟩ (fun r => ∀ c : Dev nD,
      r.2.mem ((c.tc : Thread nD τ).loc main_v2) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_main_v2 m c),
      (h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c)⟩) (run_all m ρ)

end Cert.Kernel.Hand

end
-- ==== Proof.IdealCall0.lean ====
/-
  The first call of the program: one block of hidden features per grid point.

  The grid has eight points. At point t the call stages rows 1024·t … 1024·t+1023 of the input features, the
  whole weight matrix and the bias row, and its body stores into the staged result block the product of the
  input block with the transposed weights plus the bias row (one store of the whole block); the block is written
  back to rows 1024·t … of the hidden array. This file states, for any float instance and at any contents V of the
  core's buffers when the call is entered: what each window's block is, what the body leaves in the result's
  staging buffer as a function of the three input blocks (hidBlock), the body's triple, and the data the pipeline
  rule takes (the arrays as found, what every buffer holds after the body at each point, nothing owed).
-/
import proofs.«174728_j6597069766680_2_alg».proof.Proof.Gen.KernelIdeal.Launch
import proofs.«174728_j6597069766680_2_alg».proof.Proof.Gen.KernelIdeal.Skeleton
import proofs.«174728_j6597069766680_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the call is entered
variable (V : (c : Dev nD) → (b : Ref sig .tc) → Buf (Elt F) ((c : Thread nD τ).loc b))

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window not
    fetched at a point has not moved since it was. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's rectangles: each is its whole buffer. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- What the body leaves in the result's staging buffer, from the three input blocks: its one store. -/
def hidBlock (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- That store covers the buffer. -/
theorem hidBlock_cover (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

set_option maxHeartbeats 1000000 in
/-- The body on whole staging memrefs, the inputs' holding x0, x1, x2 and the result's anything, runs to its return
    with the inputs' as they were and the result's at hidBlock x0 x1 x2. -/
theorem body0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (hidBlock x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hidBlock_cover _)

/-- The data the pipeline rule takes for this call on core c: the arrays as found; after the body at point t each
    input's buffer at its block and the result's at hidBlock of the three blocks; the invariant the scoped buffers
    no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hidBlock (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = hidBlock (blk0 V c 0 t) (blk0 V c 1 t) (blk0 V c 2 t) := by dsimp only [dat0]

theorem dat0_before_0 (c : Dev nD) (t : Fin cfg0.N) (d) : (dat0 V c).before 0 t d = blk0 V c 0 t :=
  found0_0 V (dat0 V c) (dat0_A V c 0) (dat0_after_0 V c) t d
theorem dat0_before_1 (c : Dev nD) (t : Fin cfg0.N) (d) : (dat0 V c).before 1 t d = blk0 V c 1 t :=
  found0_1 V (dat0 V c) (dat0_A V c 1) (dat0_after_1 V c) t d
theorem dat0_before_2 (c : Dev nD) (t : Fin cfg0.N) (d) : (dat0 V c).before 2 t d = blk0 V c 2 t :=
  found0_2 V (dat0 V c) (dat0_A V c 2) (dat0_after_2 V c) t d

/-- What the body is called with at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation for the body, at every point. -/
theorem obligation0 (c : Dev nD) : BodyObligation (dat0 (F := F) V c) (defs₀ (F := F)) Variants.none () Set.univ := fun t => by
  rw [bigSep_W0, bigSep_W0]
  exact body0_at V c t

end

end Cert.KernelIdeal.Hand

end
-- ==== Proof.IdealCall1Runs.lean ====
/-
  The second call of the program, first half: its body's two conditions in closed form, where its windows are idle,
  and the body's triple in each of its three cases.

  The grid is 8 × 4: point t has row block t / 4 and tile t % 4. The body keeps a 1024 × 512 accumulator in a scratch
  buffer of its own between points: at tile 0 it first fills the accumulator with zeros; at every tile it adds to the
  accumulator the product of the staged adjacency block with rows 2048·tile … of the staged hidden array; at tile 3 it
  copies the accumulator into the result's staging buffer. So a point is in one of three cases — tile 0; tiles 1, 2;
  tile 3 — and in each the body's triple is stated with the pieces its stores leave as the witness the run finds.
-/
import proofs.«174728_j6597069766680_2_alg».proof.Proof.Gen.KernelIdeal.Launch
import proofs.«174728_j6597069766680_2_alg».proof.Proof.Gen.KernelIdeal.Skeleton
import proofs.«174728_j6597069766680_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's first condition: the tile coordinate is 0. -/
abbrev isFirst (i : grid1.Coords) : Prop := (Scalar.cmpi .ne (Scalar.extui (Scalar.cmpi .eq (BitVec.ofNat 32 (i 1).val) 0#32)) 0#32) = 1#1
/-- It holds at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)
/-- The body's second condition: the tile coordinate is 3. -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Off tile 3 the result's window is idle and is not written back; -/
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
/-- at tile 3 it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the call's own. -/
abbrev accM : Memref sig .tc .vmem S1024x512 .f32 := Memref.whole cc1_scratch0
/-- The views through which the accumulator's and the result buffer's contents are stated. -/
abbrev accV : View sig .tc .vmem S1024x512 .f32 := accM.view
abbrev outV : View sig .tc .vmem S1024x512 .f32 := (Memref.whole cc1_stg2_0 : Memref sig .tc .vmem S1024x512 .f32).view

/-! ## The body's triple, case by case -/

set_option maxHeartbeats 1000000 in
/-- TILE 0. On whole memrefs — the adjacency block's at x0, the hidden array's at x1, the result's at xi (handed back
    untouched), the accumulator's at anything — the body runs to its return with the inputs' and the result's as they
    were and the accumulator's with the pieces LS written; LS is what the run finds. -/
noncomputable def runFirst (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : isFirst i) (hc1 : ¬isLast i) (x0 : Vec F S1024x2048 .f32) (x1 : Vec F S8192x512 .bf16) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact H5

set_option maxHeartbeats 1000000 in
/-- TILES 1 AND 2. As at tile 0, the accumulator's memref now at the contents xs the point before left. -/
noncomputable def runMid (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : ¬isLast i) (x0 : Vec F S1024x2048 .f32) (x1 : Vec F S8192x512 .bf16) (xs : Vec F S1024x512 .f32) :
    { LS : List (View.Piece (Elt F) S1024x512 .f32) //
      ∀ (xi : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact H5

set_option maxHeartbeats 1000000 in
/-- TILE 3. The result's memref at anything; it ends with the pieces LO written, the accumulator's with LS. -/
noncomputable def runLast (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.IdealCall1.lean ====
/-
  The second call of the program, second half: what the accumulator and the result's staging buffer hold after every
  point, by recursion on the point (tile 0 starts from zeros, every later tile adds to what the tile before left, tile
  3 also copies the total out); the invariant that carries the accumulator from point to point; and the data and the
  obligation the pipeline rule takes, for any float instance and at any contents V of the core's buffers when the call
  is entered. Off tile 3 the result's buffer is idle: handed back as found and not written back.
-/
import proofs.«174728_j6597069766680_2_alg».proof.Proof.IdealCall1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Tile 0's pieces cover the accumulator. -/
theorem coverFirst (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : isFirst i) (hc1 : ¬isLast i) (x0 : Vec F S1024x2048 .f32) (x1 : Vec F S8192x512 .bf16) (y : S1024x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x512.size (by sl_kernel_rfl) y

/-- What tile 0 leaves in the accumulator: its pieces read back. -/
def accFirst (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : isFirst i) (hc1 : ¬isLast i) (x0 : Vec F S1024x2048 .f32) (x1 : Vec F S8192x512 .bf16) : Vec F S1024x512 .f32 :=
  accV.read (Elt F) (accV.writes (Elt F) accV.junk (runFirst c i arg2 harg2 arg3 harg3 arg4 harg4 arg5 harg5 hc0 hc1 x0 x1).1)

theorem coverMid (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : ¬isLast i) (x0 : Vec F S1024x2048 .f32) (x1 : Vec F S8192x512 .bf16) (xs : Vec F S1024x512 .f32) (y : S1024x512.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x512.size (by sl_kernel_rfl) y

/-- What tiles 1 and 2 leave in the accumulator. -/
def accMid (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : ¬isLast i) (x0 : Vec F S1024x2048 .f32) (x1 : Vec F S8192x512 .bf16) (xs : Vec F S1024x512 .f32) : Vec F S1024x512 .f32 :=
  accV.read (Elt F) (accV.writes (Elt F) accV.junk (runMid c i arg2 harg2 arg3 harg3 arg4 harg4 arg5 harg5 hc0 hc1 x0 x1 xs).1)

theorem coverLastOut (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) (y : S1024x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x512.size (by sl_kernel_rfl) y

/-- What tile 3 leaves in the result's staging buffer. -/
def outLast (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) : Vec F S1024x512 .f32 :=
  outV.read (Elt F) (outV.writes (Elt F) outV.junk (runLast c i arg2 harg2 arg3 harg3 arg4 harg4 arg5 harg5 hc0 hc1 x0 x1 xs).1)

theorem coverLastAcc (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) (y : S1024x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x512.size (by sl_kernel_rfl) y

/-- What tile 3 leaves in the accumulator. -/
def accLast (c : Dev nD) (i : grid1.Coords)
    (arg2 : Memref sig .tc .vmem S1024x2048 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬isFirst i) (hc1 : isLast i) (x0 : Vec F S1024x2048 .f32) (x1 : Vec F S8192x512 .bf16) (xs : Vec F S1024x512 .f32) : Vec F S1024x512 .f32 :=
  accV.read (Elt F) (accV.writes (Elt F) accV.junk (runLast c i arg2 harg2 arg3 harg3 arg4 harg4 arg5 harg5 hc0 hc1 x0 x1 xs).2.1)

section
variable (V : (c : Dev nD) → (b : Ref sig .tc) → Buf (Elt F) ((c : Thread nD τ).loc b))

/-- Window w's block at point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## Through the grid -/

/-- THE ACCUMULATION. What the result's staging buffer and the accumulator hold after the body at position n (a pair, in
    that order): the case the closed forms select at n, run at the point's memrefs and input blocks, the accumulator
    taken at what position n − 1 left. Off tile 3 the first component is a placeholder nothing consults (the window
    is idle there). -/
def stateAt (c : Dev nD) : (n : ℕ) → n < cfg1.N → Vec F S1024x512 .f32 × Vec F S1024x512 .f32
  | 0, hn => (View.canon [], accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM (Memref.isWhole_whole _)
      ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 4 = 0 then
      if h1 : (n + 1) % 4 = 3 then
        False.elim (by omega)
      else
        (View.canon [], accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
          ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 4 = 3 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
            (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2,
          accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
            (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2)
      else
        (View.canon [], accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _)
          (fun h => h0 ((isFirst_iff ⟨n + 1, hn⟩).mp h)) (fun h => h1 ((isLast_iff ⟨n + 1, hn⟩).mp h)) (blk1 V c 0 ⟨n + 1, hn⟩) (blk1 V c 1 ⟨n + 1, hn⟩) (stateAt c n (Nat.lt_of_succ_lt hn)).2)

/-- At a point of tile 0. -/
theorem stateAt_first (c : Dev nD) (t : Fin cfg1.N) (h0 : t.val % 4 = 0) (h1 : ¬t.val % 4 = 3) :
    stateAt V c t.val t.isLt = (View.canon [], accFirst c (grid1.coords t) (ms1_0 t) (hs1_0 t) (ms1_1 t) (hs1_1 t) (ms1_2 t) (hs1_2 t) accM (Memref.isWhole_whole _)
      ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- At a point of tile 1 or 2: over what the point before left. -/
theorem stateAt_mid (c : Dev nD) (t : Fin cfg1.N) (h0 : ¬t.val % 4 = 0) (h1 : ¬t.val % 4 = 3) :
    stateAt V c t.val t.isLt = (View.canon [], accMid c (grid1.coords t) (ms1_0 t) (hs1_0 t) (ms1_1 t) (hs1_1 t) (ms1_2 t) (hs1_2 t) accM (Memref.isWhole_whole _)
      (fun h => h0 ((isFirst_iff t).mp h)) (fun h => h1 ((isLast_iff t).mp h)) (blk1 V c 0 t) (blk1 V c 1 t)
      (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of tile 3: over what the point before left. -/
theorem stateAt_last (c : Dev nD) (t : Fin cfg1.N) (h0 : ¬t.val % 4 = 0) (h1 : t.val % 4 = 3) :
    stateAt V c t.val t.isLt = (outLast c (grid1.coords t) (ms1_0 t) (hs1_0 t) (ms1_1 t) (hs1_1 t) (ms1_2 t) (hs1_2 t) accM (Memref.isWhole_whole _)
        (fun h => h0 ((isFirst_iff t).mp h)) ((isLast_iff t).mpr h1) (blk1 V c 0 t) (blk1 V c 1 t) (stateAt V c (t.val - 1) (Nat.lt_of_le_of_lt (Nat.sub_le _ _) t.isLt)).2,
      accLast c (grid1.coords t) (ms1_0 t) (hs1_0 t) (ms1_1 t) (hs1_1 t) (ms1_2 t) (hs1_2 t) accM (Memref.isWhole_whole _)
        (fun h => h0 ((isFirst_iff t).mp h)) ((isLast_iff t).mpr h1) (blk1 V c 0 t) (blk1 V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers the second call does not stage other than its accumulator — the first call's six staging
    buffers —, each whole at some contents, beside K. -/
abbrev scopedWith (c : Dev nD) (K : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ K)

/-- The invariant the launch hands the call, with the accumulator as a memref owned at some contents. -/
theorem PhiA1_eq (c : Dev nD) :
    (Pipeline.ΦA spec1 c : sProp 𝕄) = iprop(scopedWith c (iprop(∃ d, owns (c : Thread nD τ) accM fullShare d)) ∗ (∃ r, prngReg c r)) := by
  unfold Pipeline.ΦA; rw [scopedRest1_eq]; simp only [accM, owns_whole]; try rfl

/-- The invariant before position n: before the first point what the launch hands the call; afterwards the same with
    the accumulator at what the point before left. -/
def PhiS (c : Dev nD) : (n : ℕ) → n ≤ cfg1.N → sProp 𝕄
  | 0, _ => Pipeline.ΦA spec1 c
  | n + 1, hn => iprop(scopedWith c (owns (c : Thread nD τ) accM fullShare ((stateAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) accM fullShare ((stateAt V c n hn).2)) ∗ (∃ r, prngReg c r)) := rfl
theorem PhiS_pos (c : Dev nD) (n : ℕ) (h : n ≤ cfg1.N) (hz : n ≠ 0) :
    PhiS V c n h = iprop(scopedWith c (owns (c : Thread nD τ) accM fullShare ((stateAt V c (n - 1) (by omega)).2)) ∗ (∃ r, prngReg c r)) := by
  cases n with
  | zero => exact absurd rfl hz
  | succ n => rfl

/-! ## The data the pipeline rule takes -/

/-- On core c: the arrays as found; after the body at point t each input's buffer at its block and the result's at
    stateAt's first component; the invariant PhiS; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stateAt V c t.val t.isLt).1
  Φ t := PhiS V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_Phi_castSucc (c : Dev nD) (t : Fin cfg1.N) :
    (dat1 V c).Φ t.castSucc = PhiS V c t.val (Nat.le_of_lt t.isLt) := by
  dsimp only [dat1]; simp only [Fin.coe_castSucc]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = (stateAt V c t.val t.isLt).1 := by dsimp only [dat1]
theorem dat1_before_0 (c : Dev nD) (t : Fin cfg1.N) (d) : (dat1 V c).before 0 t d = blk1 V c 0 t :=
  found1_0 V (dat1 V c) (dat1_A V c 0) (dat1_after_0 V c) t d
theorem dat1_before_1 (c : Dev nD) (t : Fin cfg1.N) (d) : (dat1 V c).before 1 t d = blk1 V c 1 t :=
  found1_1 V (dat1 V c) (dat1_A V c 1) (dat1_after_1 V c) t d

/-- What the body is called with at point t, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the first point) and takes
    it back at this point's contents; off tile 3 the result's buffer is handed back as found; nothing is owed. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], dat1_after_0]
  rw [show (dat1 V c).leavesExact 1 t = owns (c : Thread nD τ) (ms1_1 t) fullShare ((dat1 V c).after 1 t) from by
    unfold Dat.leavesExact; rw [live1_1 t], dat1_after_1]
  by_cases h0 : t.val % 4 = 0
  · have h1 : ¬t.val % 4 = 3 := by omega
    rw [Dat.leavesExact_idle (dat1 V c) 2 t (idle1_2 t (fun h => h1 ((isLast_iff t).mp h))) (noFlush1_2 t (fun h => h1 ((isLast_iff t).mp h)))]
    rw [stateAt_first V c t h0 h1]
    unfold accFirst; (try dsimp only)
    by_cases hz : t.val = 0
    · rw [dat1_Phi_castSucc V c t, PhiS_zero V c _ _ hz, PhiA1_eq]
      iintro ⟨⟨⟨A0, A1, A2, A3, A4, A5, HS⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [dat1_Phi_castSucc V c t, PhiS_pos V c _ _ hz]
      iintro ⟨⟨⟨A0, A1, A2, A3, A4, A5, HS⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [live1_2 t ((isLast_iff t).mpr h1)], dat1_after_2]
      rw [stateAt_last V c t h0 h1]
      unfold outLast accLast; (try dsimp only)
      rw [dat1_Phi_castSucc V c t, PhiS_pos V c _ _ hz]
      iintro ⟨⟨⟨A0, A1, A2, A3, A4, A5, HS⟩, Hg⟩, Ho, ⟨%d0, H0⟩, ⟨%d1, H1⟩, ⟨%d2, H2⟩⟩
      iapply ((runLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [Dat.leavesExact_idle (dat1 V c) 2 t (idle1_2 t (fun h => h1 ((isLast_iff t).mp h))) (noFlush1_2 t (fun h => h1 ((isLast_iff t).mp h)))]
      rw [stateAt_mid V c t h0 h1]
      unfold accMid; (try dsimp only)
      rw [dat1_Phi_castSucc V c t, PhiS_pos V c _ _ hz]
      iintro ⟨⟨⟨A0, A1, A2, A3, A4, A5, HS⟩, Hg⟩, Ho, ⟨%d0, H0⟩, ⟨%d1, H1⟩, ⟨%d2, H2⟩⟩
      iapply ((runMid c (grid1.coords t) _ _ _ _ _ _ _ _ (fun h => h0 ((isFirst_iff t).mp h)) (fun h => h1 ((isLast_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The pipeline rule's obligation for the body, at every point. -/
theorem obligation1 (c : Dev nD) : BodyObligation (dat1 (F := F) V c) (defs₀ (F := F)) Variants.none () Set.univ := fun t => by
  rw [bigSep_W1, bigSep_W1]
  exact body1_at V c t

/-- What the launch hands the call is the invariant before the first point. -/
theorem phi1_in (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the accumulator's named contents are forgotten. -/
theorem phi1_out (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end

end Cert.KernelIdeal.Hand

end
-- ==== Proof.IdealRun.lean ====
/-
  The whole program's run: the bias recast as a row on the host, the first call, the second call.

  Between two of these items every unscoped buffer of a core holds known contents: at launch the memory m; after the
  host line, m with the bias row written; after the first call, that with the hidden array at what the call's eight
  write-backs leave; after the second call, that with the result at what its eight write-backs (one per row block, at
  tile 3) leave. Each call is entered from such a state and left at the next: its windows' arrays are split out of the
  unscoped buffers and put back at their final contents, the generator register rides through the call's invariant, the
  second call's accumulator is an unnamed scoped buffer before the call and after it. So every weakly fair execution from
  m terminates, nothing faulting, with every unscoped buffer at the last state's contents — in particular each argument
  as launched (no item writes one) and the result at the second call's final array.
-/
import proofs.«174728_j6597069766680_2_alg».proof.Proof.IdealCall0
import proofs.«174728_j6597069766680_2_alg».proof.Proof.IdealCall1
import proofs.«174728_j6597069766680_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 (c : Dev nD) : Valuation τ sig (Elt F) := fun b => m (c, b)
/-- After the host line (the first call's entry). -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem arrs0 (c : Dev nD) (w : Fin cfg0.W) : (dat0 (E1 m) c).arrAt w cfg0.N = E2 m c (Pipeline.arrRef spec0 w) :=
  (W2_arr m c w).symm
theorem rest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem arrs1 (c : Dev nD) (w : Fin cfg1.W) : (dat1 (E2 m) c).arrAt w cfg1.N = E3 m c (Pipeline.arrRef spec1 w) :=
  (W3_arr m c w).symm
theorem rest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## No item writes an argument; where the two calls' operands come from -/

/-- The host line writes the bias row only. -/
theorem W1_of (c : Dev nD) (r : Ref sig .tc) (h : r ∉ hostOps0_W) : W1 m c (Proc.devRef .tc r) = m ((c : Thread nD τ).loc r) :=
  (Gen.V1_of m c r h).trans rfl

theorem W3_main_arg0 (c : Dev nD) : W3 m c (Proc.devRef .tc main_arg0) = m ((c : Thread nD τ).loc main_arg0) :=
  (W3_of_ne m c main_arg0 (by decide)).trans <| ((W2_arr m c 0).trans (((dat0 (E1 m) c).arrAt_in 0 rfl _).trans (dat0_A (E1 m) c 0))).trans <|
    W1_of m c main_arg0 (by decide)
theorem W2_main_arg1 (c : Dev nD) : W2 m c (Proc.devRef .tc main_arg1) = m ((c : Thread nD τ).loc main_arg1) :=
  (W2_of_ne m c main_arg1 (by decide)).trans (W1_of m c main_arg1 (by decide))
theorem W3_main_arg1 (c : Dev nD) : W3 m c (Proc.devRef .tc main_arg1) = m ((c : Thread nD τ).loc main_arg1) :=
  ((W3_arr m c 0).trans (((dat1 (E2 m) c).arrAt_in 0 rfl _).trans (dat1_A (E2 m) c 0))).trans (W2_main_arg1 m c)
theorem W3_main_arg2 (c : Dev nD) : W3 m c (Proc.devRef .tc main_arg2) = m ((c : Thread nD τ).loc main_arg2) :=
  (W3_of_ne m c main_arg2 (by decide)).trans <| ((W2_arr m c 1).trans (((dat0 (E1 m) c).arrAt_in 1 rfl _).trans (dat0_A (E1 m) c 1))).trans <|
    W1_of m c main_arg2 (by decide)
theorem W3_main_arg3 (c : Dev nD) : W3 m c (Proc.devRef .tc main_arg3) = m ((c : Thread nD τ).loc main_arg3) :=
  (W3_of_ne m c main_arg3 (by decide)).trans <| (W2_of_ne m c main_arg3 (by decide)).trans <| W1_of m c main_arg3 (by decide)
/-- The result after the run: the second call's final array. -/
theorem W3_main_v2 (c : Dev nD) : W3 m c (Proc.devRef .tc main_v2) = (dat1 (E2 m) c).arrAt 2 cfg1.N := W3_arr m c 2
/-- The hidden array the second call stages: the first call's final array. -/
theorem V2_main_v1 (c : Dev nD) : E2 m c main_v1 = (dat0 (E1 m) c).arrAt 3 cfg0.N := W2_arr m c 3

/-! ## The proof data family and the thread state -/

abbrev tables : (p : Fin 2) → (pcfgs (F := F) p).Adm := fun p => (cfgs p).toPCfg_adm
/-- Each call's data at its entry contents. -/
def pdats : (p : Fin 2) → (c : Dev nD) → Dat τ (Elt F) Unit ℕ (UR sig nD τ) ℕ (Pipeline.pin (pcfgs (F := F)) tables p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
/-- THE FIRST CALL over the thread state: entered from every unscoped buffer at W1, left at W2. -/
def reg0 : Pipeline.RegionSeg (pcfgs (F := F)) tables (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at W2, left at W3. Its invariant starts as
    what the launch hands it and ends, the accumulator's contents forgotten, as that again. -/
def reg1 : Pipeline.RegionSeg (pcfgs (F := F)) tables (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h := phi1_in (E2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E2 m) c).Φ (Fin.last cfg1.N) from rfl]
    have h := phi1_out (E2 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (arrs1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev items : List (Pipeline.Seg (pcfgs (F := F)) tables (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (items m) := (main_chain c).trans (by chain_rfl)

set_option backward.isDefEq.respectTransparency.types false in
/-- THE RUN. From any memory m with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) tables (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c)⟩) (run_all m ρ)

/-- THE RUN WITH THE RESULT NAMED: the result array ends at the second call's final array, the arguments as launched. -/
theorem run_result : θ_run defs (onTc (τ := τ) (main (F := F))) ⟨m, fun _ => 0, ρ⟩ (fun r => ∀ c : Dev nD,
      r.2.mem ((c.tc : Thread nD τ).loc main_v2) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_main_v2 m c),
      (h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c)⟩) (run_all m ρ)

end Cert.KernelIdeal.Hand

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«174728_j6597069766680_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«174728_j6597069766680_2_alg».proof.Proof.LibDenseRows
import proofs.«174728_j6597069766680_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Payloads.lean ====
/-
  The arithmetic of the three bodies at one entry, at the exact (extended-real) values, where a change of float
  format is the identity.

  * The first body makes a block of 1024 rows of the hidden array: at (p, j) the sum over k of x (p, k) · w (j, k)
    plus the bias at j.
  * The second body's first store is zero everywhere.
  * The second body's accumulation: at (p, j) the accumulator there plus the sum over the 2048 positions k of one
    tile of a (p, k) · h (k, j).
-/
import proofs.«174728_j6597069766680_2_alg».proof.Proof.Gen.KernelIdeal.Skeleton
import proofs.«174728_j6597069766680_2_alg».proof.Proof.LibDenseRows
import proofs.«174728_j6597069766680_2_alg».proof.Proof.LibPlainLayers

noncomputable section

open scoped BigOperators

namespace Cert.Payloads

open Idealize.ShloMosaic Idealize.ShloMosaic.ValueIdx
open Cert.KernelIdeal Cert.KernelIdeal.Gen

/-- The first body's product contracts both operands on their last axis. -/
theorem dotT_eq : dot_S1024x512_S512x512_S1024x512_1_1_0_0_n_n = DotDims.transposedRhs 1024 512 512 := rfl

/-- The second body's product is a plain rows-by-columns one. -/
theorem dotP_eq : dot_S1024x2048_S2048x512_S1024x512_1_0_0_1_n_n = DotDims.plain 1024 2048 512 := rfl

/-- A block of the hidden array at (p, j): the row p of x against the row j of w, plus the bias at j. -/
theorem pay_hidden_apply (x0 : Vec Ideal S1024x512 .f32) (w0 : Vec Ideal S512x512 .f32) (b0 : Vec Ideal S1x512 .f32)
    (p : Fin 1024) (j : Fin 512) :
    k0_pay1 (F := Ideal) x0 w0 b0 (ix2 p j) = (∑ k : Fin 512, x0 (ix2 p k) * w0 (ix2 j k)) + b0 (ix2 (0 : Fin 1) j) := by
  unfold k0_pay1
  exact congrArg₂ (· + ·) (Cert.DenseRows.matmulT_zero_apply none _ _ p j)
    ((broadcastTo_1b_ab_apply _ broadcasts_S1x512_S1024x512 p j).trans (congrFun (shapeCast_self b0 shapeCasts_S1x512_S1x512) _))

/-- The accumulator's first value is zero at every entry. -/
theorem pay_zero_apply (p : Fin 1024) (j : Fin 512) : k1_pay1 (F := Ideal) (ix2 p j) = 0 := by
  unfold k1_pay1
  exact (congrFun (shapeCast_self _ shapeCasts_S1024x512_S1024x512) _).trans Ideal.ofBits_zero_f32

/-- One accumulation step at (p, j): the accumulator there plus the tile's sum of a (p, k) · h (k, j). -/
theorem pay_acc_apply (a : Vec Ideal S1024x2048 .f32) (h : Vec Ideal S2048x512 .bf16) (acc : Vec Ideal S1024x512 .f32)
    (p : Fin 1024) (j : Fin 512) :
    k1_pay2 (F := Ideal) a h acc (ix2 p j) = acc (ix2 p j) + ∑ k : Fin 2048, a (ix2 p k) * h (ix2 k j) := by
  unfold k1_pay2
  refine (congrFun (shapeCast_self _ shapeCasts_S1024x512_S1024x512) _).trans ?_
  refine congrArg (acc (ix2 p j) + ·) ?_
  refine (Cert.PlainLayers.plainMM_of_eq _ dotP_eq none _ _ p j).trans ?_
  exact Finset.sum_congr rfl fun k _ =>
    congrArg (a (ix2 p k) * ·) (congrFun (shapeCast_self h shapeCasts_S2048x512_S2048x512) _)

end Cert.Payloads

end
-- ==== Proof.IdealHidden.lean ====
/-
  The hidden features the first call leaves, read at the exact instance (floats extended reals, every operation exact).

  At point t the call writes back, to rows 1024·t … 1024·t+1023 of the hidden array, the block whose entry (p, j) is
  the sum over k of input (1024·t + p, k) times weight (j, k), plus the bias row's entry j: the input block is those
  rows of the input, the weight block and the bias block are the whole arrays. The eight blocks tile the array, so
  after the call the hidden array holds, at (n, j), the sum over k of input (n, k) · weight (j, k) plus bias row (0, j) —
  whatever the array held before.
-/
import proofs.«174728_j6597069766680_2_alg».proof.Proof.IdealCall0
import proofs.«174728_j6597069766680_2_alg».proof.Proof.Payloads
import Idealize.ShloMosaic.Lib.Pipeline.Value
import Idealize.ShloMosaic.Lib.ValueIdx

set_option maxRecDepth 16384

noncomputable section

namespace Cert.KernelIdeal.Hidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Idealize.ShloMosaic.ValueIdx
open scoped BigOperators

theorem zeros2 : (![0, 0] : Fin 2 → Nat) = fun _ => 0 := funext fun a => by fin_cases a <;> rfl

/-- The one store of the body is of the whole block, and its loads are of whole blocks: what it leaves is the payload
    of the three input blocks. -/
theorem hidBlock_eq (x0 : Vec F S1024x512 .f32) (x1 : Vec F S512x512 .f32) (x2 : Vec F S1x512 .f32) :
    hidBlock x0 x1 x2 = k0_pay1 x0 x1 x2 := by
  unfold hidBlock
  rw [View.canon_unit_zero zeros2]
  simp only [View.ld_unit_zero (S := S1024x512) zeros2, View.ld_unit_zero (S := S512x512) zeros2, View.ld_unit_zero (S := S1x512) zeros2]

/-- The printed index maps, decided over the grid: the input's and the result's row block is the point, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The hidden array as one function of the input, the weights and the bias row. -/
def hidArr (x : S8192x512.Idx → EReal) (w : S512x512.Idx → EReal) (brow : S1x512.Idx → EReal) : S8192x512.Idx → EReal :=
  fun i => (∑ k : Fin 512, x (ix2 (i 0) k) * w (ix2 (i 1) k)) + brow (ix2 (0 : Fin 1) (i 1))

section
variable (E : (c : Dev nD) → (b : Ref sig .tc) → Buf (Elt Ideal) ((c : Thread nD τ).loc b))

/-- WHAT POINT t WRITES BACK is block t of hidArr of the arrays as the call finds them. -/
theorem flushed_hidden (c : Dev nD) (x : S8192x512.Idx → EReal) (w : S512x512.Idx → EReal) (brow : S1x512.Idx → EReal)
    (hx : (E c main_arg0 : S8192x512.Idx → EReal) = x) (hw : (E c main_arg2 : S512x512.Idx → EReal) = w)
    (hb : (E c main_v0 : S1x512.Idx → EReal) = brow) (t : Fin cfg0.N) :
    (dat0 (F := Ideal) E c).flushed 3 t = ((cfg0.win 3).blk t).view.read (Elt Ideal) (hidArr x w brow) := by
  show (cfg0.win 3).cut (grid0.coords t) ((dat0 (F := Ideal) E c).after 3 t) = _
  rw [dat0_after_3, hidBlock_eq]
  obtain ⟨e0, e1, e2, e3, e4, e5, e6, e7⟩ := idx0 t
  refine funext fun (j : S1024x512.Idx) => ?_
  obtain ⟨p, q, rfl⟩ : ∃ (p : Fin 1024) (q : Fin 512), j = ix2 p q := ⟨j 0, j 1, eq_ix2 j⟩
  show k0_pay1 (F := Ideal) (blk0 E c 0 t) (blk0 E c 1 t) (blk0 E c 2 t) (ix2 p q) = hidArr x w brow (((cfg0.win 3).blk t).view.emb (ix2 p q))
  rw [Cert.Payloads.pay_hidden_apply]
  unfold hidArr
  have hX : ∀ k : Fin 512, blk0 E c 0 t (ix2 p k) = x (ix2 ((((cfg0.win 3).blk t).view.emb (ix2 p q)) 0) k) := fun k => by
    show E c main_arg0 (((cfg0.win 0).blk t).view.emb (ix2 p k)) = _
    rw [← hx]
    refine congrArg (E c main_arg0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * k.val = k.val; omega
  have hW : ∀ k : Fin 512, blk0 E c 1 t (ix2 q k) = w (ix2 ((((cfg0.win 3).blk t).view.emb (ix2 p q)) 1) k) := fun k => by
    show E c main_arg2 (((cfg0.win 1).blk t).view.emb (ix2 q k)) = _
    rw [← hw]
    refine congrArg (E c main_arg2) (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 512 + 1 * k.val = k.val; omega
  have hB : blk0 E c 2 t (ix2 (0 : Fin 1) q) = brow (ix2 (0 : Fin 1) ((((cfg0.win 3).blk t).view.emb (ix2 p q)) 1)) := by
    show E c main_v0 (((cfg0.win 2).blk t).view.emb (ix2 (0 : Fin 1) q)) = _
    rw [← hb]
    refine congrArg (E c main_v0) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega
  rw [hB]
  refine congrArg (· + _) (Finset.sum_congr rfl fun k _ => ?_)
  rw [hX k, hW k]

/-- An index of the hidden array is in point t's block iff each coordinate is in the block's range on its axis. -/
theorem mem_hidden_blk (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every index is in the block of the point its row block names. -/
theorem hidden_cover (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  refine ⟨⟨(i 0).val / 1024, by omega⟩, flush0_3 _, ?_⟩
  rw [mem_hidden_blk]
  obtain ⟨-, -, -, -, -, -, e6, e7⟩ := idx0 ⟨(i 0).val / 1024, by omega⟩
  intro a
  match a with
  | ⟨0, _⟩ =>
    show win0_3.index ⟨(i 0).val / 1024, _⟩ (0 : Fin 2) * 1024 ≤ (i 0).val ∧ (i 0).val < win0_3.index ⟨(i 0).val / 1024, _⟩ (0 : Fin 2) * 1024 + 1024
    rw [e6]; dsimp only; omega
  | ⟨1, _⟩ =>
    show win0_3.index ⟨(i 0).val / 1024, _⟩ (1 : Fin 2) * 512 ≤ (i 1).val ∧ (i 1).val < win0_3.index ⟨(i 0).val / 1024, _⟩ (1 : Fin 2) * 512 + 512
    rw [e7]; omega

/-- THE HIDDEN ARRAY after the first call. -/
theorem hidden_array (c : Dev nD) (x : S8192x512.Idx → EReal) (w : S512x512.Idx → EReal) (brow : S1x512.Idx → EReal)
    (hx : (E c main_arg0 : S8192x512.Idx → EReal) = x) (hw : (E c main_arg2 : S512x512.Idx → EReal) = w)
    (hb : (E c main_v0 : S1x512.Idx → EReal) = brow) :
    (dat0 (F := Ideal) E c).arrAt 3 cfg0.N = hidArr x w brow :=
  (dat0 (F := Ideal) E c).arrAt_eq_of_cover 3 (hidArr x w brow) (fun t _ => flushed_hidden E c x w brow hx hw hb t) (hidden_cover)

end

end Cert.KernelIdeal.Hidden

end
-- ==== Proof.IdealEntry.lean ====
/-
  What the two calls find in their operands, at the exact instance, in terms of the launch memory m: the first call
  finds the input and the weights as launched and the bias recast as a 1 × 512 row; the second call finds the adjacency
  matrix as launched and, in the hidden array, what the first call's eight write-backs left — entry (n, j) the sum over
  k of input (n, k) · weight (j, k) plus the bias row's entry j.
-/
import proofs.«174728_j6597069766680_2_alg».proof.Proof.IdealRun
import proofs.«174728_j6597069766680_2_alg».proof.Proof.IdealHidden
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Cert.KernelIdeal.Hidden Idealize.ShloMosaic.ValueIdx Idealize.ShloMosaic.StableHlo
open scoped BigOperators

variable (m : (ℓ : Loc nD τ sig) → Buf (Elt Ideal) ℓ)

/-- The bias row the first call stages: the host's recast of the bias. -/
theorem entry_bias (c : Dev nD) :
    (E1 (F := Ideal) m c main_v0 : S1x512.Idx → EReal) = shapeCast S1x512 (m ((c : Thread nD τ).loc main_arg3)) shapeCasts_S512_S1x512 := by
  show (W1 (F := Ideal) m c (Proc.devRef .tc main_v0) : S1x512.Idx → EReal) = _
  dsimp only [W1, W0, hostOps0]
  after_results
  rfl

theorem entry_input (c : Dev nD) : (E1 (F := Ideal) m c main_arg0 : S8192x512.Idx → EReal) = m ((c : Thread nD τ).loc main_arg0) :=
  W1_of m c main_arg0 (by decide)
theorem entry_weights (c : Dev nD) : (E1 (F := Ideal) m c main_arg2 : S512x512.Idx → EReal) = m ((c : Thread nD τ).loc main_arg2) :=
  W1_of m c main_arg2 (by decide)
theorem entry_adjacency (c : Dev nD) : (E2 (F := Ideal) m c main_arg1 : S8192x8192.Idx → EReal) = m ((c : Thread nD τ).loc main_arg1) :=
  W2_main_arg1 m c

/-- The hidden array the second call stages. -/
theorem entry_hidden (c : Dev nD) :
    (E2 (F := Ideal) m c main_v1 : S8192x512.Idx → EReal)
      = hidArr (m ((c : Thread nD τ).loc main_arg0)) (m ((c : Thread nD τ).loc main_arg2))
          (shapeCast S1x512 (m ((c : Thread nD τ).loc main_arg3)) shapeCasts_S512_S1x512) :=
  (V2_main_v1 m c).trans (hidden_array (E1 (F := Ideal) m) c _ _ _ (entry_input m c) (entry_weights m c) (entry_bias m c))

end Cert.KernelIdeal.Entry

end
-- ==== Proof.IdealTileReads.lean ====
/-
  The second call's blocks read as entries of its operands, and the rows its write-backs cover.

  At point t — row block t / 4, tile t % 4 — the staged adjacency block's entry (p, k) is the adjacency matrix at
  (1024·(t/4) + p, 2048·(t%4) + k); the hidden array is staged whole, and the body's load of 2048 rows at offset
  2048·(t%4) reads, at (k, j), the hidden array at (2048·(t%4) + k, j). The result's block at point t is rows
  1024·(t/4) … of the result, written back at tile 3 only: the point that covers row r is 4·(r/1024) + 3.
-/
import proofs.«174728_j6597069766680_2_alg».proof.Proof.IdealCall1
import Idealize.ShloMosaic.Lib.Pipeline.Value
import Idealize.ShloMosaic.Lib.ValueIdx

set_option maxRecDepth 16384

noncomputable section

namespace Cert.KernelIdeal.Reads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Idealize.ShloMosaic.ValueIdx
open scoped BigOperators

/-- The rectangle of the body's load from the staged hidden array: 2048 rows at the tile's offset, all 512 columns. -/
abbrev rH (i : grid1.Coords) : Rect S8192x512 := Rect.unit (s := S8192x512) (k1_off1 i) S2048x512.size (k1_off1_inb i)

/-- The point q places before t (the same point when q = 0; the first point when q exceeds t). -/
abbrev back (t : Fin cfg1.N) (q : ℕ) : Fin cfg1.N := ⟨t.val - q, Nat.lt_of_le_of_lt (Nat.sub_le _ _) t.isLt⟩

/-- The printed index maps and the load's offset, decided over the grid. -/
theorem idx1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

section
variable (E : (c : Dev nD) → (b : Ref sig .tc) → Buf (Elt Ideal) ((c : Thread nD τ).loc b))

/-- The adjacency block the body finds at point t, as a 1024 × 2048 array of extended reals. -/
abbrev adjBlk (c : Dev nD) (t : Fin cfg1.N) : S1024x2048.Idx → EReal := blk1 (F := Ideal) E c 0 t
/-- The 2048 rows of the staged hidden array the body loads at point t, as a 2048 × 512 array of extended reals. -/
abbrev hidTile (c : Dev nD) (t : Fin cfg1.N) : S2048x512.Idx → EReal := View.ld (blk1 (F := Ideal) E c 1 t) (rH (grid1.coords t))

/-- The adjacency block at point t, at (p, k). -/
theorem adj_read (c : Dev nD) (adj : S8192x8192.Idx → EReal) (hadj : (E c main_arg1 : S8192x8192.Idx → EReal) = adj)
    (t : Fin cfg1.N) (p : Fin 1024) (k : Fin 2048) (r n : Fin 8192)
    (hr : r.val = 1024 * (t.val / 4) + p.val) (hn : n.val = 2048 * (t.val % 4) + k.val) :
    adjBlk E c t (ix2 p k) = adj (ix2 r n) := by
  obtain ⟨e0, e1, -, -, -, -, -, -⟩ := idx1 t
  show E c main_arg1 (((cfg1.win 0).blk t).view.emb (ix2 p k)) = _
  rw [← hadj]
  refine congrArg (E c main_arg1) (funext fun a => Fin.ext ?_)
  match a with
  | ⟨0, _⟩ => show win1_0.index t (0 : Fin 2) * 1024 + 1 * p.val = r.val; omega
  | ⟨1, _⟩ => show win1_0.index t (1 : Fin 2) * 2048 + 1 * k.val = n.val; omega

/-- The body's load from the staged hidden array at point t, at (k, j). -/
theorem hid_read (c : Dev nD) (H : S8192x512.Idx → EReal) (hH : (E c main_v1 : S8192x512.Idx → EReal) = H)
    (t : Fin cfg1.N) (k : Fin 2048) (j : Fin 512) (n : Fin 8192) (hn : n.val = 2048 * (t.val % 4) + k.val) :
    hidTile E c t (ix2 k j) = H (ix2 n j) := by
  obtain ⟨-, -, e2, e3, -, -, e6, e7⟩ := idx1 t
  show E c main_v1 (((cfg1.win 1).blk t).view.emb ((rH (grid1.coords t)).idx (ix2 k j))) = _
  rw [← hH]
  refine congrArg (E c main_v1) (funext fun a => Fin.ext ?_)
  match a with
  | ⟨0, _⟩ => show win1_1.index t (0 : Fin 2) * 8192 + 1 * (k1_off1 (grid1.coords t) (0 : Fin 2) + 1 * k.val) = n.val; omega
  | ⟨1, _⟩ => show win1_1.index t (1 : Fin 2) * 512 + 1 * (k1_off1 (grid1.coords t) (1 : Fin 2) + 1 * j.val) = j.val; omega

end

/-- An index of the result is in point t's block iff each coordinate is in the block's range on its axis. -/
theorem mem_result_blk (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v2).slice (win1_2.rect t)).set ↔ _
  rw [View.set_slice_whole, Rect.mem_set_unit]
  exact Iff.rfl

/-- Every index of the result is in the block of the tile-3 point of its row block. -/
theorem result_cover (i : S8192x512.Idx) :
    ∃ t : Fin cfg1.N, (cfg1.win 2).flush t = true ∧ i ∈ ((cfg1.win 2).blk t).view.set := by
  have hi0 : (i 0).val < 8192 := (i 0).isLt
  have hi1 : (i 1).val < 512 := (i 1).isLt
  have hN : cfg1.N = 32 := N_1
  refine ⟨⟨4 * ((i 0).val / 1024) + 3, by omega⟩, (flush1_2 _).mpr (by dsimp only; omega), ?_⟩
  rw [mem_result_blk]
  obtain ⟨-, -, -, -, e4, e5, -, -⟩ := idx1 ⟨4 * ((i 0).val / 1024) + 3, by omega⟩
  intro a
  match a with
  | ⟨0, _⟩ =>
    show win1_2.index ⟨4 * ((i 0).val / 1024) + 3, _⟩ (0 : Fin 2) * 1024 ≤ (i 0).val ∧ (i 0).val < win1_2.index ⟨4 * ((i 0).val / 1024) + 3, _⟩ (0 : Fin 2) * 1024 + 1024
    rw [e4]; dsimp only; omega
  | ⟨1, _⟩ =>
    show win1_2.index ⟨4 * ((i 0).val / 1024) + 3, _⟩ (1 : Fin 2) * 512 ≤ (i 1).val ∧ (i 1).val < win1_2.index ⟨4 * ((i 0).val / 1024) + 3, _⟩ (1 : Fin 2) * 512 + 512
    rw [e5]; omega

end Cert.KernelIdeal.Reads

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.Tiles.lean ====
/-
  A sum over 8192 positions as a running total over four tiles of 2048.

  Position k of tile c is index 2048 * c + k. A total started at zero to which the four tiles' sums are added one
  after the other is the sum over all 8192 positions: only commutativity and associativity of addition are used, so
  the statement holds in any commutative additive monoid — on the extended reals at the infinities too.
-/
import Mathlib.Algebra.BigOperators.Fin
import proofs.«174728_j6597069766680_2_alg».proof.Proof.LibChunkSum

open scoped BigOperators

namespace Cert.Tiles

variable {M : Type*} [AddCommMonoid M]

/-- Position `k` of tile `c`: index `2048 * c + k`. -/
def tile (c : Fin 4) (k : Fin 2048) : Fin 8192 := ⟨2048 * c.val + k.val, by omega⟩

theorem tile_val (c : Fin 4) (k : Fin 2048) : (tile c k).val = 2048 * c.val + k.val := rfl

/-- The running total over the four tiles, started at zero, is the sum over all 8192 positions. -/
theorem four_tiles (T : Fin 8192 → M) :
    (((0 + ∑ k : Fin 2048, T (tile 0 k)) + ∑ k : Fin 2048, T (tile 1 k)) + ∑ k : Fin 2048, T (tile 2 k))
        + ∑ k : Fin 2048, T (tile 3 k) = ∑ n : Fin 8192, T n :=
  Cert.LibChunkSum.running_four 2048 T tile tile_val

end Cert.Tiles
-- ==== Proof.IdealAccum.lean ====
/-
  The second call's value at the exact (extended-real) instance.

  The grid is 8 × 4: point t works on row block t / 4 and tile t % 4. In each of the body's three cases what it leaves
  in the accumulator (and, at tile 3, in the result's staging buffer) is one product step: the accumulator it found —
  zeros at tile 0 — plus the adjacency block times the 2048 rows of the hidden array the tile names. So after tile 3
  of row block b the result's buffer holds, at (p, j), the four tiles' sums added one after the other onto zero, which
  is the sum over all 8192 positions n of adj (1024·b + p, n) · H (n, j). The write-backs at the eight points of
  tile 3 tile the result array, which therefore ends as adj times H.
-/
import proofs.«174728_j6597069766680_2_alg».proof.Proof.IdealCall1
import proofs.«174728_j6597069766680_2_alg».proof.Proof.Payloads
import proofs.«174728_j6597069766680_2_alg».proof.Proof.Tiles
import proofs.«174728_j6597069766680_2_alg».proof.Proof.IdealTileReads
import Idealize.ShloMosaic.Lib.Pipeline.Value

set_option maxRecDepth 16384

noncomputable section

open scoped BigOperators

namespace Cert.KernelIdeal.Accum

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz : (![0, 0] : Fin 2 → Nat) = fun _ => 0 := funext fun a => by fin_cases a <;> rfl

open Cert.KernelIdeal.Reads (rH back adjBlk hidTile)

/-! ## What each case leaves: one product step -/

/-- Tile 0 leaves the step over zeros. -/
theorem accFirst_eq (c : Dev nD) (i : grid1.Coords)
    (a2 : Memref sig .tc .vmem S1024x2048 .f32) (h2 : a2.IsWhole) (a3 : Memref sig .tc .vmem S8192x512 .bf16) (h3 : a3.IsWhole)
    (a4 : Memref sig .tc .vmem S1024x512 .f32) (h4 : a4.IsWhole) (a5 : Memref sig .tc .vmem S1024x512 .f32) (h5 : a5.IsWhole)
    (hc0 : isFirst i) (hc1 : ¬isLast i) (x0 : Vec F S1024x2048 .f32) (x1 : Vec F S8192x512 .bf16) :
    accFirst c i a2 h2 a3 h3 a4 h4 a5 h5 hc0 hc1 x0 x1 = k1_pay2 x0 (View.ld x1 (rH i)) (k1_pay1 (F := F)) := by
  unfold accFirst
  rw [View.read_writes_eq_canon _ _ _ (coverFirst c i a2 h2 a3 h3 a4 h4 a5 h5 hc0 hc1 x0 x1)]
  unfold runFirst
  dsimp only
  sl_unfold_words
  rw [View.canon_cons_unit_zero (S := S1024x512) hz, View.readCov_unit_zero (S := S1024x512) _ hz]
  simp only [View.readAt_eq_ld, h2.read_unread, h3.read_unread, h5.read_unread, View.ld_unit_zero (S := S1024x2048) hz, View.ld_unit_zero (S := S1024x512) hz]
  rfl

/-- Tiles 1 and 2 leave the step over what they found. -/
theorem accMid_eq (c : Dev nD) (i : grid1.Coords)
    (a2 : Memref sig .tc .vmem S1024x2048 .f32) (h2 : a2.IsWhole) (a3 : Memref sig .tc .vmem S8192x512 .bf16) (h3 : a3.IsWhole)
    (a4 : Memref sig .tc .vmem S1024x512 .f32) (h4 : a4.IsWhole) (a5 : Memref sig .tc .vmem S1024x512 .f32) (h5 : a5.IsWhole)
    (hc0 : ¬isFirst i) (hc1 : ¬isLast i) (x0 : Vec F S1024x2048 .f32) (x1 : Vec F S8192x512 .bf16) (xs : Vec F S1024x512 .f32) :
    accMid c i a2 h2 a3 h3 a4 h4 a5 h5 hc0 hc1 x0 x1 xs = k1_pay2 x0 (View.ld x1 (rH i)) xs := by
  unfold accMid
  rw [View.read_writes_eq_canon _ _ _ (coverMid c i a2 h2 a3 h3 a4 h4 a5 h5 hc0 hc1 x0 x1 xs)]
  unfold runMid
  dsimp only
  rw [View.canon_unit_zero hz]
  simp only [View.readAt_eq_ld, h2.read_unread, h3.read_unread, h5.read_unread, View.ld_unit_zero (S := S1024x2048) hz, View.ld_unit_zero (S := S1024x512) hz]

/-- Tile 3 leaves the same step in the accumulator, -/
theorem accLast_eq (c : Dev nD) (i : grid1.Coords)
    (a2 : Memref sig .tc .vmem S1024x2048 .f32) (h2 : a2.IsWhole) (a3 : Memref sig .tc .vmem S8192x512 .bf16) (h3 : a3.IsWhole)
    (a4 : Memref sig .tc .vmem S1024x512 .f32) (h4 : a4.IsWhole) (a5 : Memref sig .tc .vmem S1024x512 .f32) (h5 : a5.IsWhole)
    (hc0 : ¬isFirst i) (hc1 : isLast i) (x0 : Vec F S1024x2048 .f32) (x1 : Vec F S8192x512 .bf16) (xs : Vec F S1024x512 .f32) :
    accLast c i a2 h2 a3 h3 a4 h4 a5 h5 hc0 hc1 x0 x1 xs = k1_pay2 x0 (View.ld x1 (rH i)) xs := by
  unfold accLast
  rw [View.read_writes_eq_canon _ _ _ (coverLastAcc c i a2 h2 a3 h3 a4 h4 a5 h5 hc0 hc1 x0 x1 xs)]
  unfold runLast
  dsimp only
  sl_unfold_words
  rw [View.canon_unit_zero hz]
  simp only [View.readAt_eq_ld, h2.read_unread, h3.read_unread, h5.read_unread, View.ld_unit_zero (S := S1024x2048) hz, View.ld_unit_zero (S := S1024x512) hz]
  rfl

/-- and copies it into the result's staging buffer. -/
theorem outLast_eq (c : Dev nD) (i : grid1.Coords)
    (a2 : Memref sig .tc .vmem S1024x2048 .f32) (h2 : a2.IsWhole) (a3 : Memref sig .tc .vmem S8192x512 .bf16) (h3 : a3.IsWhole)
    (a4 : Memref sig .tc .vmem S1024x512 .f32) (h4 : a4.IsWhole) (a5 : Memref sig .tc .vmem S1024x512 .f32) (h5 : a5.IsWhole)
    (hc0 : ¬isFirst i) (hc1 : isLast i) (x0 : Vec F S1024x2048 .f32) (x1 : Vec F S8192x512 .bf16) (xs : Vec F S1024x512 .f32) :
    outLast c i a2 h2 a3 h3 a4 h4 a5 h5 hc0 hc1 x0 x1 xs = k1_pay2 x0 (View.ld x1 (rH i)) xs := by
  unfold outLast
  rw [View.read_writes_eq_canon _ _ _ (coverLastOut c i a2 h2 a3 h3 a4 h4 a5 h5 hc0 hc1 x0 x1 xs)]
  unfold runLast
  dsimp only
  sl_unfold_words
  rw [View.canon_unit_zero hz, View.readCov_unit_zero (S := S1024x512) _ hz]
  simp only [View.readAt_eq_ld, h2.read_unread, h3.read_unread, h5.read_unread, View.ld_unit_zero (S := S1024x2048) hz, View.ld_unit_zero (S := S1024x512) hz]
  rfl

/-! ## The accumulator after a point, for any float instance -/

section
variable (V : (c : Dev nD) → (b : Ref sig .tc) → Buf (Elt F) ((c : Thread nD τ).loc b))

/-- The state after position n does not depend on how n is written. -/
theorem stateAt_congr (c : Dev nD) {n n' : ℕ} (h : n = n') (hn : n < cfg1.N) (hn' : n' < cfg1.N) :
    stateAt V c n hn = stateAt V c n' hn' := by
  subst h; rfl

/-- After a point of tile 0: the step over zeros. -/
theorem acc_first (c : Dev nD) (t : Fin cfg1.N) (h0 : t.val % 4 = 0) :
    (stateAt V c t.val t.isLt).2 = k1_pay2 (blk1 V c 0 t) (View.ld (blk1 V c 1 t : Vec F S8192x512 .bf16) (rH (grid1.coords t))) (k1_pay1 (F := F)) := by
  have h1 : ¬t.val % 4 = 3 := by omega
  rw [stateAt_first V c t h0 h1]
  dsimp only
  rw [accFirst_eq]
  rfl

/-- After any later tile: the step over what the point before left. -/
theorem acc_next (c : Dev nD) (t : Fin cfg1.N) (h0 : ¬t.val % 4 = 0) :
    (stateAt V c t.val t.isLt).2 = k1_pay2 (blk1 V c 0 t) (View.ld (blk1 V c 1 t : Vec F S8192x512 .bf16) (rH (grid1.coords t)))
      (stateAt V c (t.val - 1) (Nat.lt_of_le_of_lt (Nat.sub_le _ _) t.isLt)).2 := by
  by_cases h1 : t.val % 4 = 3
  · rw [stateAt_last V c t h0 h1]
    dsimp only
    rw [accLast_eq]
    rfl
  · rw [stateAt_mid V c t h0 h1]
    dsimp only
    rw [accMid_eq]
    rfl

/-- At tile 3 the result's staging buffer is left at the accumulator's new contents. -/
theorem out_last (c : Dev nD) (t : Fin cfg1.N) (h1 : t.val % 4 = 3) :
    (stateAt V c t.val t.isLt).1 = (stateAt V c t.val t.isLt).2 := by
  have h0 : ¬t.val % 4 = 0 := by omega
  rw [stateAt_last V c t h0 h1]
  dsimp only
  rw [outLast_eq, accLast_eq]

end

/-! ## At the exact instance: the accumulator entry by entry -/

section Exact
variable (E : (c : Dev nD) → (b : Ref sig .tc) → Buf (Elt Ideal) ((c : Thread nD τ).loc b)) (c : Dev nD)

/-- What one point adds at (p, j): row p of its adjacency block against column j of its tile of the hidden array. -/
def tileTerm (t : Fin cfg1.N) (p : Fin 1024) (j : Fin 512) : EReal :=
  ∑ k : Fin 2048, adjBlk E c t (ix2 p k) * hidTile E c t (ix2 k j)

/-- After a point of tile 0 the accumulator is zero plus the point's term; -/
theorem acc_first_apply (t : Fin cfg1.N) (h0 : t.val % 4 = 0) (p : Fin 1024) (j : Fin 512) :
    (stateAt E c t.val t.isLt).2 (ix2 p j) = 0 + tileTerm E c t p j := by
  rw [acc_first E c t h0]
  exact (Cert.Payloads.pay_acc_apply (blk1 E c 0 t) (View.ld (blk1 E c 1 t : Vec Ideal S8192x512 .bf16) (rH (grid1.coords t)))
    (k1_pay1 (F := Ideal)) p j).trans (congrArg (· + tileTerm E c t p j) (Cert.Payloads.pay_zero_apply p j))

/-- after any later tile, what the point before left plus the point's term. -/
theorem acc_next_apply (t : Fin cfg1.N) (h0 : ¬t.val % 4 = 0) (p : Fin 1024) (j : Fin 512) :
    (stateAt E c t.val t.isLt).2 (ix2 p j)
      = (stateAt E c (t.val - 1) (Nat.lt_of_le_of_lt (Nat.sub_le _ _) t.isLt)).2 (ix2 p j) + tileTerm E c t p j := by
  rw [acc_next E c t h0]
  exact Cert.Payloads.pay_acc_apply (blk1 E c 0 t) (View.ld (blk1 E c 1 t : Vec Ideal S8192x512 .bf16) (rH (grid1.coords t)))
    (stateAt E c (t.val - 1) (Nat.lt_of_le_of_lt (Nat.sub_le _ _) t.isLt)).2 p j

/-- THE ENTRY WRITTEN BACK at a point t of tile 3: zero, plus the terms of the four points t − 3, t − 2, t − 1, t of its
    row block, added in that order. -/
theorem out_entry (t : Fin cfg1.N) (h3 : t.val % 4 = 3) (p : Fin 1024) (j : Fin 512) :
    (stateAt (F := Ideal) E c t.val t.isLt).1 (ix2 p j)
      = (((0 + ∑ k : Fin 2048, adjBlk E c (back t 3) (ix2 p k) * hidTile E c (back t 3) (ix2 k j))
            + ∑ k : Fin 2048, adjBlk E c (back t 2) (ix2 p k) * hidTile E c (back t 2) (ix2 k j))
            + ∑ k : Fin 2048, adjBlk E c (back t 1) (ix2 p k) * hidTile E c (back t 1) (ix2 k j))
            + ∑ k : Fin 2048, adjBlk E c t (ix2 p k) * hidTile E c t (ix2 k j) := by
  show _ = (((0 + tileTerm E c (back t 3) p j) + tileTerm E c (back t 2) p j) + tileTerm E c (back t 1) p j) + tileTerm E c t p j
  have ht := t.isLt
  rw [out_last E c t h3, acc_next_apply E c t (by omega) p j,
    acc_next_apply E c (back t 1) (by show ¬(t.val - 1) % 4 = 0; omega) p j,
    stateAt_congr E c (n := t.val - 1 - 1) (n' := t.val - 2) (by omega) _ (back t 2).isLt,
    acc_next_apply E c (back t 2) (by show ¬(t.val - 2) % 4 = 0; omega) p j,
    stateAt_congr E c (n := t.val - 2 - 1) (n' := t.val - 3) (by omega) _ (back t 3).isLt,
    acc_first_apply E c (back t 3) (by show (t.val - 3) % 4 = 0; omega) p j]

end Exact

end Cert.KernelIdeal.Accum

end
-- ==== Proof.Spec.lean ====
/-
  The result as one function of the four argument arrays, index by index, on the extended reals.

  The hidden array is a dense layer: at (n, o) the sum over i of x (n, i) · w (o, i) plus the bias at o. The result
  is the adjacency array times the hidden array: at (r, o) the sum over the 8192 rows n of adj (r, n) · hid (n, o).
-/
import Idealize.ShloMosaic.PureOps.Ideal
import Idealize.ShloMosaic.Lib.ValueIdx

noncomputable section

open scoped BigOperators

namespace Cert.Spec

open Idealize.ShloMosaic Idealize.ShloMosaic.ValueIdx

/-- The hidden array at (n, o): row n of x against row o of w, plus the bias at o. -/
def hid (x : (⟨2, ![8192, 512]⟩ : Shape).Idx → EReal) (w : (⟨2, ![512, 512]⟩ : Shape).Idx → EReal)
    (b : (⟨1, ![512]⟩ : Shape).Idx → EReal) (n : Fin 8192) (o : Fin 512) : EReal :=
  (∑ i : Fin 512, x (ix2 n i) * w (ix2 o i)) + b (ix1 o)

/-- The result array: at (r, o) the sum over n of adj (r, n) times the hidden array at (n, o). -/
def G (x : (⟨2, ![8192, 512]⟩ : Shape).Idx → EReal) (adj : (⟨2, ![8192, 8192]⟩ : Shape).Idx → EReal)
    (w : (⟨2, ![512, 512]⟩ : Shape).Idx → EReal) (b : (⟨1, ![512]⟩ : Shape).Idx → EReal) :
    (⟨2, ![8192, 512]⟩ : Shape).Idx → EReal :=
  fun i => ∑ n : Fin 8192, adj (ix2 (i 0) n) * hid x w b n (i 1)

theorem G_apply (x : (⟨2, ![8192, 512]⟩ : Shape).Idx → EReal) (adj : (⟨2, ![8192, 8192]⟩ : Shape).Idx → EReal)
    (w : (⟨2, ![512, 512]⟩ : Shape).Idx → EReal) (b : (⟨1, ![512]⟩ : Shape).Idx → EReal) (r : Fin 8192) (o : Fin 512) :
    G x adj w b (ix2 r o) = ∑ n : Fin 8192, adj (ix2 r n) * hid x w b n o := rfl

end Cert.Spec

end
-- ==== Proof.IdealResult.lean ====
/-
  The result the second call leaves, at the exact instance, and so the kernel's result as one function of its arguments.

  A tile-3 point t = 4·i + 3 writes back, to rows 1024·i … of the result, the accumulator: started at zero at tile 0 and
  added to at each of the four tiles, its entry (p, j) is the sum over the four tiles q of the sums over k of adjacency
  (1024·i + p, 2048·q + k) · hidden (2048·q + k, j) — the sum over all 8192 columns n of adjacency (1024·i + p, n) ·
  hidden (n, j), cut into four consecutive runs of 2048. The eight such blocks tile the result. With the hidden array
  the first call left, entry (r, o) of the result is the sum over n of adjacency (r, n) · (Σᵢ input (n, i) · weight (o, i)
  + bias o).
-/
import proofs.«174728_j6597069766680_2_alg».proof.Proof.IdealEntry
import proofs.«174728_j6597069766680_2_alg».proof.Proof.IdealTileReads
import proofs.«174728_j6597069766680_2_alg».proof.Proof.IdealAccum
import proofs.«174728_j6597069766680_2_alg».proof.Proof.Tiles
import proofs.«174728_j6597069766680_2_alg».proof.Proof.Spec
import Idealize.ShloMosaic.Lib.ValueLayout

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Cert.KernelIdeal.Hidden Cert.KernelIdeal.Reads Cert.KernelIdeal.Entry Idealize.ShloMosaic.ValueIdx
open scoped BigOperators

/-- Adjacency times a hidden array, entry by entry. -/
def mix (adj : S8192x8192.Idx → EReal) (H : S8192x512.Idx → EReal) : S8192x512.Idx → EReal :=
  fun i => ∑ n : Fin 8192, adj (ix2 (i 0) n) * H (ix2 n (i 1))

theorem mix_at (adj : S8192x8192.Idx → EReal) (H : S8192x512.Idx → EReal) (i : S8192x512.Idx) (r : Fin 8192) (o : Fin 512)
    (hr : (i 0).val = r.val) (ho : (i 1).val = o.val) : mix adj H i = ∑ n : Fin 8192, adj (ix2 r n) * H (ix2 n o) := by
  have hi : i = ix2 r o := funext fun a => Fin.ext (by
    match a with
    | ⟨0, _⟩ => exact hr
    | ⟨1, _⟩ => exact ho)
  subst hi; rfl

section
variable (E : (c : Dev nD) → (b : Ref sig .tc) → Buf (Elt Ideal) ((c : Thread nD τ).loc b))

/-- WHAT A TILE-3 POINT WRITES BACK is its block of adjacency times hidden. -/
theorem flushed_result (c : Dev nD) (adj : S8192x8192.Idx → EReal) (H : S8192x512.Idx → EReal)
    (hadj : (E c main_arg1 : S8192x8192.Idx → EReal) = adj) (hH : (E c main_v1 : S8192x512.Idx → EReal) = H)
    (t : Fin cfg1.N) (h3 : t.val % 4 = 3) :
    (dat1 (F := Ideal) E c).flushed 2 t = ((cfg1.win 2).blk t).view.read (Elt Ideal) (mix adj H) := by
  show (cfg1.win 2).cut (grid1.coords t) ((dat1 (F := Ideal) E c).after 2 t) = _
  rw [dat1_after_2]
  obtain ⟨-, -, -, -, e4, e5, -, -⟩ := idx1 t
  have hN : t.val < 32 := lt_of_lt_of_eq t.isLt N_1
  refine funext fun (y : S1024x512.Idx) => ?_
  obtain ⟨p, j, rfl⟩ : ∃ (p : Fin 1024) (j : Fin 512), y = ix2 p j := ⟨y 0, y 1, eq_ix2 y⟩
  show (stateAt (F := Ideal) E c t.val t.isLt).1 (ix2 p j) = mix adj H (((cfg1.win 2).blk t).view.emb (ix2 p j))
  have hp : p.val < 1024 := p.isLt
  rw [mix_at adj H _ ⟨1024 * (t.val / 4) + p.val, by omega⟩ j
      (by show win1_2.index t (0 : Fin 2) * 1024 + 1 * p.val = 1024 * (t.val / 4) + p.val; omega)
      (by show win1_2.index t (1 : Fin 2) * 512 + 1 * j.val = j.val; omega),
    ← Cert.Tiles.four_tiles (fun n => adj (ix2 (⟨1024 * (t.val / 4) + p.val, by omega⟩ : Fin 8192) n) * H (ix2 n j)),
    Cert.KernelIdeal.Accum.out_entry E c t h3 p j]
  refine congrArg₂ (· + ·) (congrArg₂ (· + ·) (congrArg₂ (· + ·) (congrArg (0 + ·) ?_) ?_) ?_) ?_
  · refine Finset.sum_congr rfl fun k _ => ?_
    have hk : k.val < 2048 := k.isLt
    rw [adj_read E c adj hadj (back t 3) p k ⟨1024 * (t.val / 4) + p.val, by omega⟩ (Cert.Tiles.tile 0 k)
        (by dsimp only; omega) (by rw [Cert.Tiles.tile_val]; show 2048 * 0 + k.val = 2048 * ((t.val - 3) % 4) + k.val; omega),
      hid_read E c H hH (back t 3) k j (Cert.Tiles.tile 0 k)
        (by rw [Cert.Tiles.tile_val]; show 2048 * 0 + k.val = 2048 * ((t.val - 3) % 4) + k.val; omega)]
  · refine Finset.sum_congr rfl fun k _ => ?_
    have hk : k.val < 2048 := k.isLt
    rw [adj_read E c adj hadj (back t 2) p k ⟨1024 * (t.val / 4) + p.val, by omega⟩ (Cert.Tiles.tile 1 k)
        (by dsimp only; omega) (by rw [Cert.Tiles.tile_val]; show 2048 * 1 + k.val = 2048 * ((t.val - 2) % 4) + k.val; omega),
      hid_read E c H hH (back t 2) k j (Cert.Tiles.tile 1 k)
        (by rw [Cert.Tiles.tile_val]; show 2048 * 1 + k.val = 2048 * ((t.val - 2) % 4) + k.val; omega)]
  · refine Finset.sum_congr rfl fun k _ => ?_
    have hk : k.val < 2048 := k.isLt
    rw [adj_read E c adj hadj (back t 1) p k ⟨1024 * (t.val / 4) + p.val, by omega⟩ (Cert.Tiles.tile 2 k)
        (by dsimp only; omega) (by rw [Cert.Tiles.tile_val]; show 2048 * 2 + k.val = 2048 * ((t.val - 1) % 4) + k.val; omega),
      hid_read E c H hH (back t 1) k j (Cert.Tiles.tile 2 k)
        (by rw [Cert.Tiles.tile_val]; show 2048 * 2 + k.val = 2048 * ((t.val - 1) % 4) + k.val; omega)]
  · refine Finset.sum_congr rfl fun k _ => ?_
    have hk : k.val < 2048 := k.isLt
    rw [adj_read E c adj hadj t p k ⟨1024 * (t.val / 4) + p.val, by omega⟩ (Cert.Tiles.tile 3 k)
        (by dsimp only) (by rw [Cert.Tiles.tile_val]; show 2048 * 3 + k.val = 2048 * (t.val % 4) + k.val; omega),
      hid_read E c H hH t k j (Cert.Tiles.tile 3 k)
        (by rw [Cert.Tiles.tile_val]; show 2048 * 3 + k.val = 2048 * (t.val % 4) + k.val; omega)]

/-- THE RESULT ARRAY after the second call: adjacency times the hidden array it staged. -/
theorem result_array (c : Dev nD) (adj : S8192x8192.Idx → EReal) (H : S8192x512.Idx → EReal)
    (hadj : (E c main_arg1 : S8192x8192.Idx → EReal) = adj) (hH : (E c main_v1 : S8192x512.Idx → EReal) = H) :
    (dat1 (F := Ideal) E c).arrAt 2 cfg1.N = mix adj H :=
  (dat1 (F := Ideal) E c).arrAt_eq_of_cover 2 (mix adj H)
    (fun t hf => flushed_result E c adj H hadj hH t ((flush1_2 t).mp hf)) result_cover

end

/-- With the hidden array the first call left, adjacency times hidden is the specification's function. -/
theorem mix_hidden (x : S8192x512.Idx → EReal) (adj : S8192x8192.Idx → EReal) (w : S512x512.Idx → EReal) (b : S512.Idx → EReal) :
    mix adj (hidArr x w (shapeCast S1x512 b shapeCasts_S512_S1x512)) = Cert.Spec.G x adj w b := by
  funext i
  obtain ⟨r, o, rfl⟩ : ∃ (r : Fin 8192) (o : Fin 512), i = ix2 r o := ⟨i 0, i 1, eq_ix2 i⟩
  rw [Cert.Spec.G_apply, mix_at adj _ (ix2 r o) r o rfl rfl]
  refine Finset.sum_congr rfl fun n _ => congrArg (adj (ix2 r n) * ·) ?_
  show (∑ k : Fin 512, x (ix2 n k) * w (ix2 o k)) + shapeCast S1x512 b shapeCasts_S512_S1x512 (ix2 (0 : Fin 1) o) = Cert.Spec.hid x w b n o
  rw [shapeCast_a_1a_apply b shapeCasts_S512_S1x512 0 o]
  rfl

/-- THE KERNEL'S RESULT: the specification's function of the four arguments as launched. -/
theorem result_eq (m : (ℓ : Loc nD τ sig) → Buf (Elt Ideal) ℓ) (c : Dev nD) :
    (dat1 (F := Ideal) (E2 m) c).arrAt 2 cfg1.N
      = Cert.Spec.G (m ((c.tc : Thread nD τ).loc main_arg0)) (m ((c.tc : Thread nD τ).loc main_arg1))
          (m ((c.tc : Thread nD τ).loc main_arg2)) (m ((c.tc : Thread nD τ).loc main_arg3)) :=
  (result_array (E2 m) c _ _ (entry_adjacency m c) (entry_hidden m c)).trans (mix_hidden _ _ _ _)

end Cert.KernelIdeal.Result

end
-- ==== Proof.RefValue.lean ====
/-
  The reference computes the specification.

  The reference is five operations: the product of x with w over their last axes, the bias recast as one row and that
  row repeated down the 8192 rows, their sum (the hidden array), and the product of adj with the hidden array. Read
  at an index (r, o), stage by stage, that is the sum over n of adj (r, n) times (the sum over i of
  x (n, i) · w (o, i), plus the bias at o): the specification's function, entry by entry.
-/
import proofs.«174728_j6597069766680_2_alg».proof.Proof.Gen.ReferenceIdeal.Read
import proofs.«174728_j6597069766680_2_alg».proof.Proof.Spec

noncomputable section

open scoped BigOperators

namespace Cert.RefValue

open Idealize.ShloMosaic Idealize.ShloMosaic.ValueIdx
open Cert.ReferenceIdeal Cert.ReferenceIdeal.Gen Cert.ReferenceIdeal.Read

/-! ## The operand indices of each stage, at an index given by its coordinates -/

/-- The outer product reads adj at (r, n). -/
theorem lidx4 (r : Fin 8192) (o : Fin 512) (n : Fin 8192) : lidx_main_v4 (ix2 r o) n = ix2 r n :=
  funext fun a => Fin.ext (by match a with | ⟨0, _⟩ => rfl | ⟨1, _⟩ => rfl)

/-- The outer product reads the hidden array at (n, o). -/
theorem ridx4 (r : Fin 8192) (o : Fin 512) (n : Fin 8192) : ridx_main_v4 (ix2 r o) n = ix2 n o :=
  funext fun a => Fin.ext (by match a with | ⟨0, _⟩ => rfl | ⟨1, _⟩ => rfl)

/-- The inner product reads x at (n, k). -/
theorem lidx0 (n : Fin 8192) (o : Fin 512) (k : Fin 512) : lidx_main_v0 (ix2 n o) k = ix2 n k :=
  funext fun a => Fin.ext (by match a with | ⟨0, _⟩ => rfl | ⟨1, _⟩ => rfl)

/-- The inner product reads w at (o, k). -/
theorem ridx0 (n : Fin 8192) (o : Fin 512) (k : Fin 512) : ridx_main_v0 (ix2 n o) k = ix2 o k :=
  funext fun a => Fin.ext (by match a with | ⟨0, _⟩ => rfl | ⟨1, _⟩ => rfl)

/-- The repeated bias row reads the bias at o, whatever the row. -/
theorem idx12 (n : Fin 8192) (o : Fin 512) : idx_main_v1 (idx_main_v2 (ix2 n o)) = ix1 o :=
  funext fun a => Fin.ext (by match a with | ⟨0, _⟩ => rfl)

/-! ## The reference's result is the specification's function -/

/-- The last stage of the reference, as a function of the four argument arrays, is `Cert.Spec.G` of them. -/
theorem ref_is_G (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal)) :
    val_main_v4 (F := Ideal) x0 x1 x2 x3 = Cert.Spec.G x0 x1 x2 x3 := by
  funext i
  obtain ⟨r, o, rfl⟩ : ∃ (r : Fin 8192) (o : Fin 512), i = ix2 r o := ⟨i 0, i 1, eq_ix2 i⟩
  rw [Cert.Spec.G_apply, val_main_v4_apply]
  refine Finset.sum_congr rfl fun n _ => ?_
  rw [lidx4, ridx4, val_main_v3_apply, val_main_v0_apply, val_main_v2_apply, val_main_v1_apply, idx12]
  simp only [lidx0, ridx0, Ideal.addf_def]
  rfl

end Cert.RefValue

end
-- ==== Proof.lean ====
/-
  The claim of this certificate (proof/Defs.lean): a two-stage graph layer — hidden = input · weightᵀ + bias, then
  result = adjacency · hidden — as a pair of Pallas calls against its plain jnp reference.

  The frames. Each of the two printed kernel programs (read at the word level and at the exact instance) is the bias
  recast as a row on the host, the first call (eight row blocks of the hidden array) and the second call (8 × 4 points:
  the adjacency block times a 2048-row tile of the hidden array, added into an accumulator the call keeps in a scratch
  buffer, copied out at the fourth tile); their runs are Proof/BitsRun.lean and Proof/IdealRun.lean, over the calls'
  bodies run once per case. The reference is host operations only: its frame is its generated run with the result dropped.
  preserves. The idealized kernel is the kernel's own text read at the exact instance: nothing was rewritten.
  algebraic. At the exact instance both programs end with result (r, o) = Σₙ adjacency (r, n) · (Σᵢ input (n, i) ·
  weight (o, i) + bias o): the reference by its two products read as sums (Proof/RefValue.lean), the kernel because its
  first call leaves exactly the hidden array (Proof/IdealHidden.lean) and its second adds, from zero, the four tiles'
  partial sums, which is the whole sum regrouped (Proof/IdealAccum.lean, Proof/Tiles.lean) — only commutativity and
  associativity of addition on the extended reals, so the inputs' finiteness is never used.
-/
import proofs.«174728_j6597069766680_2_alg».proof.Defs
import proofs.«174728_j6597069766680_2_alg».proof.Proof.Gen.Kernel
import proofs.«174728_j6597069766680_2_alg».proof.Proof.Gen.KernelIdeal
import proofs.«174728_j6597069766680_2_alg».proof.Proof.Gen.ReferenceIdeal
import proofs.«174728_j6597069766680_2_alg».proof.Proof.Gen.Pre_finite_inputs
import proofs.«174728_j6597069766680_2_alg».proof.Proof.Gen.ReferenceIdeal.Run
import proofs.«174728_j6597069766680_2_alg».proof.Proof.BitsRun
import proofs.«174728_j6597069766680_2_alg».proof.Proof.IdealResult
import proofs.«174728_j6597069766680_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ
theorem frame_ideal : Cert.frame_KernelIdeal := fun m ρ _ => Cert.KernelIdeal.Hand.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the one function G of the four argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.KernelIdeal.Result.result_eq m c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v4_eq _ _ _ _).trans (Cert.RefValue.ref_is_G _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
